-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4 : Shape := ⟨2, ![2048, 4]⟩
abbrev S100000x128 : Shape := ⟨2, ![100000, 128]⟩
abbrev S128x100000 : Shape := ⟨2, ![128, 100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_

variable [Facts]

def fn {F : FTy → Type} [FloatOps F] (main_arg0 : IVec S2048x4 32) (main_arg1 : FVec F S100000x128 .f32) (main_arg2 : FVec F S128x100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x100000 .f32 := Host.absf main_arg2
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  main_v8
-- ==== Kernel.lean ====
abbrev S2048x4 : Shape := ⟨2, ![2048, 4]⟩
abbrev S100000x128 : Shape := ⟨2, ![100000, 128]⟩
abbrev S128x100000 : Shape := ⟨2, ![128, 100000]⟩
abbrev S_ : Shape := ⟨0, ![]⟩
abbrev S2048x4x1 : Shape := ⟨3, ![2048, 4, 1]⟩
abbrev S2048x4x128 : Shape := ⟨3, ![2048, 4, 128]⟩
abbrev S2048x128 : Shape := ⟨2, ![2048, 128]⟩
abbrev S128x100352 : Shape := ⟨2, ![128, 100352]⟩
abbrev S2048x1 : Shape := ⟨2, ![2048, 1]⟩
abbrev S128x1024 : Shape := ⟨2, ![128, 1024]⟩
abbrev S2048x1024 : Shape := ⟨2, ![2048, 1024]⟩
abbrev S2048 : Shape := ⟨1, ![2048]⟩
abbrev S2048x100352 : Shape := ⟨2, ![2048, 100352]⟩
abbrev S128x512 : Shape := ⟨2, ![128, 512]⟩
abbrev S2048x512 : Shape := ⟨2, ![2048, 512]⟩
abbrev S2048x100000 : Shape := ⟨2, ![2048, 100000]⟩

abbrev nBuf : Space → Nat
  | .hbm => 23
  | .vmem => 12
  | .smem => 0
  | _ => 0

abbrev bufTy : (tb : Table) → Fin (tcTables nBuf tb) → BufTy
  | .hbm, ⟨0, _⟩ => ⟨S2048x4, .i32⟩
  | .hbm, ⟨1, _⟩ => ⟨S100000x128, .f32⟩
  | .hbm, ⟨2, _⟩ => ⟨S128x100000, .f32⟩
  | .hbm, ⟨3, _⟩ => ⟨S_, .i32⟩
  | .hbm, ⟨4, _⟩ => ⟨S2048x4, .i32⟩
  | .hbm, ⟨5, _⟩ => ⟨S2048x4, .i1⟩
  | .hbm, ⟨6, _⟩ => ⟨S_, .i32⟩
  | .hbm, ⟨7, _⟩ => ⟨S2048x4, .i32⟩
  | .hbm, ⟨8, _⟩ => ⟨S2048x4, .i32⟩
  | .hbm, ⟨9, _⟩ => ⟨S2048x4, .i32⟩
  | .hbm, ⟨10, _⟩ => ⟨S2048x4x1, .i32⟩
  | .hbm, ⟨11, _⟩ => ⟨S2048x4x128, .f32⟩
  | .hbm, ⟨12, _⟩ => ⟨S_, .f32⟩
  | .hbm, ⟨13, _⟩ => ⟨S2048x128, .f32⟩
  | .hbm, ⟨14, _⟩ => ⟨S_, .f32⟩
  | .hbm, ⟨15, _⟩ => ⟨S2048x128, .f32⟩
  | .hbm, ⟨16, _⟩ => ⟨S2048x128, .f32⟩
  | .hbm, ⟨17, _⟩ => ⟨S_, .i32⟩
  | .hbm, ⟨18, _⟩ => ⟨S_, .f32⟩
  | .hbm, ⟨19, _⟩ => ⟨S128x100352, .f32⟩
  | .hbm, ⟨20, _⟩ => ⟨S2048x1, .f32⟩
  | .hbm, ⟨21, _⟩ => ⟨S2048x100352, .f32⟩
  | .hbm, ⟨22, _⟩ => ⟨S2048x100000, .f32⟩
  | .local _ .vmem, ⟨0, _⟩ => ⟨S2048x128, .f32⟩
  | .local _ .vmem, ⟨1, _⟩ => ⟨S128x1024, .f32⟩
  | .local _ .vmem, ⟨2, _⟩ => ⟨S128x1024, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x128, .f32⟩
  | .local _ .vmem, ⟨7, _⟩ => ⟨S128x512, .f32⟩
  | .local _ .vmem, ⟨8, _⟩ => ⟨S128x512, .f32⟩
  | .local _ .vmem, ⟨9, _⟩ => ⟨S2048x1, .f32⟩
  | .local _ .vmem, ⟨10, _⟩ => ⟨S2048x512, .f32⟩
  | .local _ .vmem, ⟨11, _⟩ => ⟨S2048x512, .f32⟩
  | _, _ => ⟨S2048x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![98], ![false]⟩

def k0_cond2 (i : grid0.Coords) : BitVec 1 :=
  let arg0 : BitVec 32 := BitVec.ofNat 32 (i 0).val
  let c97_i32 : BitVec 32 := 97#32
  let v39 : BitVec 1 := Scalar.cmpi .eq arg0 c97_i32
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2048x4 : S_.BroadcastsInDim S2048x4 (![] : Fin 0 → Fin S2048x4.rank)
  bcast_S2048x4_S2048x4x1_0_1 : S2048x4.BroadcastsInDim S2048x4x1 (![0, 1] : Fin 2 → Fin S2048x4x1.rank)
  reducesTo_S2048x4x128_S2048x128_d1 : S2048x4x128.ReducesTo [1] S2048x128
  h_S_ : 0 < S_.numel
  bcast_S_S2048x128 : S_.BroadcastsInDim S2048x128 (![] : Fin 0 → Fin S2048x128.rank)
  pads_S128x100000_S128x100352_000_03520 : S128x100000.Pads (![0, 0] : Fin 2 → Nat) ![0, 352] ![0, 0] S128x100352
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  iota_S2048x1024_d1_w32 : S2048x1024.Iotas .tc 32 [1]
  reduces_S2048x1024_S2048 : S2048x1024.Reduces [1] S2048
  shapeCasts_S2048_S2048x1 : S2048.ShapeCasts S2048x1
  broadcasts_S2048x1_S2048x1024 : S2048x1.Broadcasts S2048x1024
  inb_S128x512_S128x512_0_0 : ∀ a, (![0, 0] : Fin 2 → Nat) a + S128x512.size a ≤ S128x512.size a
  h_S128x512 : 0 < S128x512.numel
  shapeCasts_S128x512_S128x512 : S128x512.ShapeCasts S128x512
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  slices_S2048x100352_S2048x100000_0_0 : S2048x100352.Slices ![0, 0] S2048x100000
  gather_S100000x128_S2048x4x1_S2048x4x128_2_0_n_n_0_2_1128_wf : GatherDims.WF S100000x128 S2048x4x1 S2048x4x128 [2] [0] [] [0] [] 2 ![1, 128]
  dot_S2048x128_S128x1024_S2048x1024_1_0_0_1_n_n_wf : DotDims.WF S2048x128 S128x1024 S2048x1024 [1] [0] [0] [1] [] []
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .f32 = 32 ∨ (Rect.block (s := S2048x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x100352.size a
  hwx0_1 : ∀ i : grid0.Coords, EltTy.bits .f32 = 32 ∨ (Rect.block (s := S128x100352) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .f32 = 32 ∨ (Rect.block (s := S2048x1) S2048x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S2048x128.size a
  hwx1_0 : ∀ i : grid1.Coords, EltTy.bits .f32 = 32 ∨ (Rect.block (s := S2048x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x100352.size a
  hwx1_1 : ∀ i : grid1.Coords, EltTy.bits .f32 = 32 ∨ (Rect.block (s := S128x100352) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S2048x1.size a
  hwx1_2 : ∀ i : grid1.Coords, EltTy.bits .f32 = 32 ∨ (Rect.block (s := S2048x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S2048x100352.size a
  hwx1_3 : ∀ i : grid1.Coords, EltTy.bits .f32 = 32 ∨ (Rect.block (s := S2048x100352) S2048x512.size (cc1_transform_3 i) (hinb1_3 i)).WholeWords (EltTy.packing .f32)

variable [Facts₀]

def gather_S100000x128_S2048x4x1_S2048x4x128_2_0_n_n_0_2_1128 : GatherDims S100000x128 S2048x4x1 S2048x4x128 where
  offsetDims := [2]
  collapsedSliceDims := [0]
  operandBatchingDims := []
  startIndicesBatchingDims := []
  startIndexMap := [0]
  indexVectorDim := 2
  sliceSizes := ![1, 128]
  wf := gather_S100000x128_S2048x4x1_S2048x4x128_2_0_n_n_0_2_1128_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_v9) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S2048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x4 : Shape := ⟨2, ![2048, 4]⟩
abbrev S100000x128 : Shape := ⟨2, ![100000, 128]⟩
abbrev S128x100000 : Shape := ⟨2, ![128, 100000]⟩
abbrev S_ : Shape := ⟨0, ![]⟩
abbrev S2048x4x1 : Shape := ⟨3, ![2048, 4, 1]⟩
abbrev S2048x4x128 : Shape := ⟨3, ![2048, 4, 128]⟩
abbrev S2048x128 : Shape := ⟨2, ![2048, 128]⟩
abbrev S2048x100000 : Shape := ⟨2, ![2048, 100000]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x4, .i32⟩
  | .hbm, ⟨1, _⟩ => ⟨S100000x128, .f32⟩
  | .hbm, ⟨2, _⟩ => ⟨S128x100000, .f32⟩
  | .hbm, ⟨3, _⟩ => ⟨S_, .i32⟩
  | .hbm, ⟨4, _⟩ => ⟨S2048x4, .i32⟩
  | .hbm, ⟨5, _⟩ => ⟨S2048x4, .i1⟩
  | .hbm, ⟨6, _⟩ => ⟨S_, .i32⟩
  | .hbm, ⟨7, _⟩ => ⟨S2048x4, .i32⟩
  | .hbm, ⟨8, _⟩ => ⟨S2048x4, .i32⟩
  | .hbm, ⟨9, _⟩ => ⟨S2048x4, .i32⟩
  | .hbm, ⟨10, _⟩ => ⟨S2048x4x1, .i32⟩
  | .hbm, ⟨11, _⟩ => ⟨S2048x4x128, .f32⟩
  | .hbm, ⟨12, _⟩ => ⟨S_, .f32⟩
  | .hbm, ⟨13, _⟩ => ⟨S2048x128, .f32⟩
  | .hbm, ⟨14, _⟩ => ⟨S_, .f32⟩
  | .hbm, ⟨15, _⟩ => ⟨S2048x128, .f32⟩
  | .hbm, ⟨16, _⟩ => ⟨S2048x128, .f32⟩
  | .hbm, ⟨17, _⟩ => ⟨S2048x100000, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1, .f32⟩
  | .hbm, ⟨24, _⟩ => ⟨S2048x100000, .f32⟩
  | .hbm, ⟨25, _⟩ => ⟨S2048x100000, .f32⟩
  | .hbm, ⟨26, _⟩ => ⟨S2048x100000, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x100000, .f32⟩
  | .hbm, ⟨31, _⟩ => ⟨S2048x100000, .f32⟩
  | _, _ => ⟨S2048x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S2048x4 : S_.BroadcastsInDim S2048x4 (![] : Fin 0 → Fin S2048x4.rank)
  bcast_S2048x4_S2048x4x1_0_1 : S2048x4.BroadcastsInDim S2048x4x1 (![0, 1] : Fin 2 → Fin S2048x4x1.rank)
  reducesTo_S2048x4x128_S2048x128_d1 : S2048x4x128.ReducesTo [1] S2048x128
  h_S_ : 0 < S_.numel
  bcast_S_S2048x128 : S_.BroadcastsInDim S2048x128 (![] : Fin 0 → Fin S2048x128.rank)
  reducesTo_S2048x100000_S2048_d1 : S2048x100000.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x100000_0_1 : S2048x1.BroadcastsInDim S2048x100000 (![0, 1] : Fin 2 → Fin S2048x100000.rank)
  gather_S100000x128_S2048x4x1_S2048x4x128_2_0_n_n_0_2_1128_wf : GatherDims.WF S100000x128 S2048x4x1 S2048x4x128 [2] [0] [] [0] [] 2 ![1, 128]
  dot_S2048x128_S128x100000_S2048x100000_1_0_0_1_n_n_wf : DotDims.WF S2048x128 S128x100000 S2048x100000 [1] [0] [0] [1] [] []

variable [Facts₀]

def gather_S100000x128_S2048x4x1_S2048x4x128_2_0_n_n_0_2_1128 : GatherDims S100000x128 S2048x4x1 S2048x4x128 where
  offsetDims := [2]
  collapsedSliceDims := [0]
  operandBatchingDims := []
  startIndicesBatchingDims := []
  startIndexMap := [0]
  indexVectorDim := 2
  sliceSizes := ![1, 128]
  wf := gather_S100000x128_S2048x4x1_S2048x4x128_2_0_n_n_0_2_1128_wf
def dot_S2048x128_S128x100000_S2048x100000_1_0_0_1_n_n : DotDims S2048x128 S128x100000 S2048x100000 where
  lhsContracting := [1]
  rhsContracting := [0]
  lhsNonContracting := [0]
  rhsNonContracting := [1]
  lhsBatch := []
  rhsBatch := []
  wf := dot_S2048x128_S128x100000_S2048x100000_1_0_0_1_n_n_wf

class Facts : Prop extends Facts₀ where

variable [Facts]
-- ==== Proof.K.StatsShared.lean ====
/-
  The first kernel region — the pass that walks the vocabulary tile by tile keeping, per row, a running maximum and a
  running sum of exponentials in two scratch columns — seen from the pipeline: the two conditions of its body decided
  over the grid (the first tile resets the pair, the last tile writes maximum + log sum to the output column), where
  its output window is idle, and the staging and scratch buffers the body is handed.
-/
import proofs.«178366_j68152541053411_1_alg».proof.Proof.Gen.Kernel.Launch
import proofs.«178366_j68152541053411_1_alg».proof.Proof.Gen.Kernel.Skeleton
import proofs.«178366_j68152541053411_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- The body's first condition: this is the first tile. -/
abbrev cond0_0 (i : grid0.Coords) : Prop := (Scalar.cmpi .ne (Scalar.extui (Scalar.cmpi .eq (BitVec.ofNat 32 (i 0).val) 0#32)) 0#32) = 1#1
/-- It holds at tile 0 only. -/
theorem hcond0_0 : ∀ t : Fin cfg0.N, cond0_0 (grid0.coords t) ↔ t.val = 0 :=
  (by decide +kernel : ∀ t : Fin grid0.N, cond0_0 (grid0.coords t) ↔ t.val = 0)

/-- The body's second condition: this is the last tile. -/
abbrev cond0_1 (i : grid0.Coords) : Prop := k0_cond2 i = 1#1
/-- It holds at tile 97 only. -/
theorem hcond0_1 : ∀ t : Fin cfg0.N, cond0_1 (grid0.coords t) ↔ t.val = 97 :=
  (by decide +kernel : ∀ t : Fin grid0.N, cond0_1 (grid0.coords t) ↔ t.val = 97)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last tile nothing is stored into the output column's buffer, -/
theorem idleAt0_2 : ∀ t : Fin cfg0.N, ¬cond0_1 (grid0.coords t) → cfg0.idle 2 (grid0.coords t) = true := by decide +kernel
/-- and it is not written back there; -/
theorem noFlush0_2 : ∀ t : Fin cfg0.N, ¬cond0_1 (grid0.coords t) → (cfg0.win 2).flush t = false := by decide +kernel
/-- at the last tile it is stored. -/
theorem liveAt0_2 : ∀ t : Fin cfg0.N, cond0_1 (grid0.coords t) → cfg0.idle 2 (grid0.coords t) = false := by decide +kernel

/-! ## The buffers the body is handed -/

abbrev VO0_2 : View sig .tc .vmem S2048x1 .f32 := (Memref.whole cc0_stg2_0 : Memref sig .tc .vmem S2048x1 .f32).view
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The two scratch columns: the running maximum and the running sum. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

end Cert.Kernel.Walk

end
-- ==== Proof.K.StatsRunA.lean ====
/-
  The first tile (the pair is reset, then updated; nothing is stored to the output column).
-/
import proofs.«178366_j68152541053411_1_alg».proof.Proof.K.StatsShared

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body, handed its buffers at the
    stated contents, runs to the continuation holding them with those pieces written. -/
noncomputable def kernelRun0_A (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32) :
    Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Walk

end
-- ==== Proof.K.StatsRunB.lean ====
/-
  A middle tile (the pair is updated from what the tile before left; nothing is stored to the output column).
-/
import proofs.«178366_j68152541053411_1_alg».proof.Proof.K.StatsRunA

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body, handed its buffers at the
    stated contents, runs to the continuation holding them with those pieces written. -/
noncomputable def kernelRun0_B (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) :
    Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Walk

end
-- ==== Proof.K.StatsRunC.lean ====
/-
  The last tile (the pair is updated, then maximum + log sum is stored to the output column).
-/
import proofs.«178366_j68152541053411_1_alg».proof.Proof.K.StatsRunB

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body, handed its buffers at the
    stated contents, runs to the continuation holding them with those pieces written. -/
noncomputable def kernelRun0_C (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) :
    Σ' (L2 : List (View.Piece (Elt F) S2048x1 .f32)), Σ' (LS0 : List (View.Piece (Elt F) S2048x1 .f32)), { LS1 : List (View.Piece (Elt F) S2048x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Walk

end
-- ==== Proof.K.Stats.lean ====
/-
  The first kernel region's proof data. Per row the two scratch columns hold, after tile t, the running maximum m(t)
  and the running sum l(t); the output column is stored once, at the last tile, with m + log l. Here: what each of the
  three cases of the body (first tile, a middle tile, the last tile) leaves in the scratch columns and in the output
  column, as what its stores wrote; those contents tile after tile, each tile's from the one before; the region's
  invariant carrying the two scratch columns at exactly those contents; and the per-tile obligation, case by case.
-/
import proofs.«178366_j68152541053411_1_alg».proof.Proof.K.StatsRunC

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every tile, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  (y : S2048x1.Idx) :
    ∃ pc ∈ (kernelRun0_A c i arg1 harg1 arg2 harg2 arg3 harg3 arg4 harg4 arg5 harg5 hc0 hc1 x0 x1 ).1, y ∈ pc.1.set :=
  View.cover_of_tiledL (kernelRun0_A c i arg1 harg1 arg2 harg2 arg3 harg3 arg4 harg4 arg5 harg5 hc0 hc1 x0 x1 ).1 S2048x1.size (by sl_kernel_rfl) y
theorem scover0_A_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  (y : S2048x1.Idx) :
    ∃ pc ∈ (kernelRun0_A c i arg1 harg1 arg2 harg2 arg3 harg3 arg4 harg4 arg5 harg5 hc0 hc1 x0 x1 ).2.1, y ∈ pc.1.set :=
  View.cover_of_tiledL (kernelRun0_A c i arg1 harg1 arg2 harg2 arg3 harg3 arg4 harg4 arg5 harg5 hc0 hc1 x0 x1 ).2.1 S2048x1.size (by sl_kernel_rfl) y
def sout0_A_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  : Vec F S2048x1 .f32 :=
  VS0_0.read (Elt F) (VS0_0.writes (Elt F) VS0_0.junk (kernelRun0_A c i arg1 harg1 arg2 harg2 arg3 harg3 arg4 harg4 arg5 harg5 hc0 hc1 x0 x1 ).1)
def sout0_A_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  : Vec F S2048x1 .f32 :=
  VS0_1.read (Elt F) (VS0_1.writes (Elt F) VS0_1.junk (kernelRun0_A c i arg1 harg1 arg2 harg2 arg3 harg3 arg4 harg4 arg5 harg5 hc0 hc1 x0 x1 ).2.1)

theorem scover0_B_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) (y : S2048x1.Idx) :
    ∃ pc ∈ (kernelRun0_B c i arg1 harg1 arg2 harg2 arg3 harg3 arg4 harg4 arg5 harg5 hc0 hc1 x0 x1 xs0 xs1).1, y ∈ pc.1.set :=
  View.cover_of_tiledL (kernelRun0_B c i arg1 harg1 arg2 harg2 arg3 harg3 arg4 harg4 arg5 harg5 hc0 hc1 x0 x1 xs0 xs1).1 S2048x1.size (by sl_kernel_rfl) y
theorem scover0_B_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) (y : S2048x1.Idx) :
    ∃ pc ∈ (kernelRun0_B c i arg1 harg1 arg2 harg2 arg3 harg3 arg4 harg4 arg5 harg5 hc0 hc1 x0 x1 xs0 xs1).2.1, y ∈ pc.1.set :=
  View.cover_of_tiledL (kernelRun0_B c i arg1 harg1 arg2 harg2 arg3 harg3 arg4 harg4 arg5 harg5 hc0 hc1 x0 x1 xs0 xs1).2.1 S2048x1.size (by sl_kernel_rfl) y
def sout0_B_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) : Vec F S2048x1 .f32 :=
  VS0_0.read (Elt F) (VS0_0.writes (Elt F) VS0_0.junk (kernelRun0_B c i arg1 harg1 arg2 harg2 arg3 harg3 arg4 harg4 arg5 harg5 hc0 hc1 x0 x1 xs0 xs1).1)
def sout0_B_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) : Vec F S2048x1 .f32 :=
  VS0_1.read (Elt F) (VS0_1.writes (Elt F) VS0_1.junk (kernelRun0_B c i arg1 harg1 arg2 harg2 arg3 harg3 arg4 harg4 arg5 harg5 hc0 hc1 x0 x1 xs0 xs1).2.1)

theorem cover0_C_2 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) (y : S2048x1.Idx) :
    ∃ pc ∈ (kernelRun0_C c i arg1 harg1 arg2 harg2 arg3 harg3 arg4 harg4 arg5 harg5 hc0 hc1 x0 x1 xs0 xs1).1, y ∈ pc.1.set :=
  View.cover_of_tiledL (kernelRun0_C c i arg1 harg1 arg2 harg2 arg3 harg3 arg4 harg4 arg5 harg5 hc0 hc1 x0 x1 xs0 xs1).1 S2048x1.size (by sl_kernel_rfl) y
theorem scover0_C_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) (y : S2048x1.Idx) :
    ∃ pc ∈ (kernelRun0_C c i arg1 harg1 arg2 harg2 arg3 harg3 arg4 harg4 arg5 harg5 hc0 hc1 x0 x1 xs0 xs1).2.1, y ∈ pc.1.set :=
  View.cover_of_tiledL (kernelRun0_C c i arg1 harg1 arg2 harg2 arg3 harg3 arg4 harg4 arg5 harg5 hc0 hc1 x0 x1 xs0 xs1).2.1 S2048x1.size (by sl_kernel_rfl) y
theorem scover0_C_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) (y : S2048x1.Idx) :
    ∃ pc ∈ (kernelRun0_C c i arg1 harg1 arg2 harg2 arg3 harg3 arg4 harg4 arg5 harg5 hc0 hc1 x0 x1 xs0 xs1).2.2.1, y ∈ pc.1.set :=
  View.cover_of_tiledL (kernelRun0_C c i arg1 harg1 arg2 harg2 arg3 harg3 arg4 harg4 arg5 harg5 hc0 hc1 x0 x1 xs0 xs1).2.2.1 S2048x1.size (by sl_kernel_rfl) y
def out0_C_2 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) : Vec F S2048x1 .f32 :=
  VO0_2.read (Elt F) (VO0_2.writes (Elt F) VO0_2.junk (kernelRun0_C c i arg1 harg1 arg2 harg2 arg3 harg3 arg4 harg4 arg5 harg5 hc0 hc1 x0 x1 xs0 xs1).1)
def sout0_C_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) : Vec F S2048x1 .f32 :=
  VS0_0.read (Elt F) (VS0_0.writes (Elt F) VS0_0.junk (kernelRun0_C c i arg1 harg1 arg2 harg2 arg3 harg3 arg4 harg4 arg5 harg5 hc0 hc1 x0 x1 xs0 xs1).2.1)
def sout0_C_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) : Vec F S2048x1 .f32 :=
  VS0_1.read (Elt F) (VS0_1.writes (Elt F) VS0_1.junk (kernelRun0_C c i arg1 harg1 arg2 harg2 arg3 harg3 arg4 harg4 arg5 harg5 hc0 hc1 x0 x1 xs0 xs1).2.2.1)

/-- A placeholder for the output column where no tile stores it (nothing consults it: the window is idle there). -/
def unstored : Vec F S2048x1 .f32 := VO0_2.read (Elt F) VO0_2.junk

/-! ## Tile after tile -/

/-- What the output column's buffer and the two scratch columns hold after the body at tile n: the case the tile is
    in, run on the tile's blocks and on what tile n − 1 left in the scratch columns. -/
def outsAt0 (c : Dev nD) : (n : ℕ) → n < cfg0.N → Vec F S2048x1 .f32 × Vec F S2048x1 .f32 × Vec F S2048x1 .f32
  | 0, hn =>
    (unstored,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => by have h' : (0 : ℕ) = 97 := (hcond0_1 ⟨0, hn⟩).mp h; omega) (iblk0 V c 0 ⟨0, hn⟩) (iblk0 V c 1 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => by have h' : (0 : ℕ) = 97 := (hcond0_1 ⟨0, hn⟩).mp h; omega) (iblk0 V c 0 ⟨0, hn⟩) (iblk0 V c 1 ⟨0, hn⟩))
  | n + 1, hn =>
    if h1 : n + 1 = 97 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
    else
      (unstored,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- The first tile. -/
theorem outsAt0_A (c : Dev nD) (t : Fin cfg0.N) (h0 : t.val = 0) (h1 : ¬t.val = 97) :
    outsAt0 V c t.val t.isLt = (unstored,
      sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t),
      sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

/-- A middle tile, over what the tile before left. -/
theorem outsAt0_B (c : Dev nD) (t : Fin cfg0.N) (h0 : ¬t.val = 0) (h1 : ¬t.val = 97) :
    outsAt0 V c t.val t.isLt = (unstored,
      sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl h0
  | succ n => exact (dif_neg h1).trans rfl

/-- The last tile, over what the tile before left. -/
theorem outsAt0_C (c : Dev nD) (t : Fin cfg0.N) (h0 : ¬t.val = 0) (h1 : t.val = 97) :
    outsAt0 V c t.val t.isLt = (
      out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl h0
  | succ n => exact (dif_pos h1).trans rfl

/-! ## The invariant -/

/-- The core's other scoped buffers (the second region's staging buffers), each whole at some contents. -/
def Rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest6 c) ∗ (∃ r, prngReg c r)) := by
  unfold Pipeline.ΦA Rest6; rw [scopedRest0_eq]; simp only [scM0_0, scM0_1, owns_whole]; try rfl

/-- The region's invariant before tile n: before the first tile the scratch columns hold anything; afterwards
    exactly what tile n − 1 left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Rest6 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ Rest6 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ Rest6 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.Kernel.Walk

end
-- ==== Proof.K.StatsBody.lean ====
/-
  The first kernel region's per-tile obligation. At each tile the body is handed the two input blocks, the output
  column's buffer and, through the invariant, the two scratch columns at what the tile before left (at anything before
  the first tile); it returns the scratch columns at this tile's contents. Three cases: the first tile, a middle
  tile, the last tile (the only one that stores the output column).
-/
import proofs.«178366_j68152541053411_1_alg».proof.Proof.K.Stats

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at tile t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  by_cases h0 : t.val = 0
  · have h1 : ¬t.val = 97 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 _ _ _ _ _ _ _ _ _ _ _ _ _ _ _ _)
        isplitl [HS1]
        · unfold owns; iexists _; isplitr
          swap; · iexact HS1
          ipureintro; exact View.read_writes_of_cover _ _ _ _ _ (scover0_A_1 _ _ _ _ _ _ _ _ _ _ _ _ _ _ _ _)
        iexact HR
      iexact Hg
    isplitl [Ho]; · iexact Ho
    isplitl [H0]; · iexact H0
    isplitl [H1]; · iexact H1
    iexists _; iexact H2
  · by_cases h1 : t.val = 97
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0 sout0_C_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 _ _ _ _ _ _ _ _ _ _ _ _ _ _ _ _ _ _)
          isplitl [HS1]
          · unfold owns; iexists _; isplitr
            swap; · iexact HS1
            ipureintro; exact View.read_writes_of_cover _ _ _ _ _ (scover0_C_1 _ _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 _ _ _ _ _ _ _ _ _ _ _ _ _ _ _ _ _ _)
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0 sout0_B_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 _ _ _ _ _ _ _ _ _ _ _ _ _ _ _ _ _ _)
          isplitl [HS1]
          · unfold owns; iexists _; isplitr
            swap; · iexact HS1
            ipureintro; exact View.read_writes_of_cover _ _ _ _ _ (scover0_B_1 _ _ _ _ _ _ _ _ _ _ _ _ _ _ _ _ _ _)
          iexact HR
        iexact Hg
      isplitl [Ho]; · iexact Ho
      isplitl [H0]; · iexact H0
      isplitl [H1]; · iexact H1
      iexists _; iexact H2

/-- The pipeline's body obligation, at every tile. -/
theorem body_obligation0 (c : Dev nD) : BodyObligation (dat0 (F := F) V c) (defs₀ (F := F)) Variants.none () Set.univ := fun t => by
  rw [bigSep_W0, bigSep_W0]
  exact sound_body0 V c t

/-- What the region is handed is the invariant before the first tile. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any tile the invariant gives the class invariant back: the scratch columns' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last tile. -/
theorem hout0 (c : Dev nD) : (dat0 V c).Φ (Fin.last cfg0.N) ⊢ Pipeline.ΦA spec0 c :=
  Phi_out0 V c _ (by rw [Fin.val_last]; have : cfg0.N = 98 := N_0; omega)

end Region

end Cert.Kernel.Walk

end
-- ==== Proof.K.Norm.lean ====
/-
  The second kernel region — the pass that recomputes each tile of logits and writes exp(logit − lse) — seen from the
  pipeline, at a parameter V for the buffers' contents when the region is entered: each window's block at a tile,
  what the body leaves in the output block as a function of the three input blocks, the body's run, and the
  pipeline's proof data with its per-tile obligation. Nothing is kept between tiles.
-/
import proofs.«178366_j68152541053411_1_alg».proof.Proof.Gen.Kernel.Launch
import proofs.«178366_j68152541053411_1_alg».proof.Proof.Gen.Kernel.Skeleton
import proofs.«178366_j68152541053411_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x128 := Rect.unit (s := S2048x128) ![0, 0] S2048x128.size inb_S2048x128_S2048x128_0_0
abbrev r1_1 : Rect S128x512 := Rect.unit (s := S128x512) ![0, 0] S128x512.size inb_S128x512_S128x512_0_0
abbrev r1_2 : Rect S2048x1 := Rect.unit (s := S2048x1) ![0, 0] S2048x1.size inb_S2048x1_S2048x1_0_0
abbrev r1_3 : Rect S2048x512 := Rect.unit (s := S2048x512) ![0, 0] S2048x512.size inb_S2048x512_S2048x512_0_0

/-- The output block after the body, from the three input blocks: its one store. -/
def out1_3 (x0 : Vec F S2048x128 .f32) (x1 : Vec F S128x512 .f32) (x2 : Vec F S2048x1 .f32) : Vec F S2048x512 .f32 :=
  View.canon [⟨r1_3, k1_pay1 (View.ld x0 r1_0) (View.ld x1 r1_1) (View.ld x2 r1_2)⟩]

/-- The one store covers the block. -/
theorem cover1_3 (p0 : Vec F S2048x512 .f32) (y : S2048x512.Idx) :
    ∃ pc ∈ ([⟨r1_3, p0⟩] : List (View.Piece (Elt F) S2048x512 .f32)), y ∈ pc.1.set :=
  View.cover_of_tiled [⟨r1_3, p0⟩] S2048x512.size (by rfl) y

set_option maxHeartbeats 2000000 in
/-- The body on whole staging buffers, the inputs at their contents and the output at anything, runs to the
    continuation holding the inputs as they were and the output at out1_3 of them. -/
theorem sound_kernel1 (c : Dev nD) (E : Set ℕ) (i : grid1.Coords) (arg1 : Memref sig .tc .vmem S2048x128 .f32) (harg1 : arg1.IsWhole) (arg2 : Memref sig .tc .vmem S128x512 .f32) (harg2 : arg2.IsWhole) (arg3 : Memref sig .tc .vmem S2048x1 .f32) (harg3 : arg3.IsWhole) (arg4 : Memref sig .tc .vmem S2048x512 .f32) (harg4 : arg4.IsWhole)
    (x0 : Vec F S2048x128 .f32) (x1 : Vec F S128x512 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data: the arrays as the region finds them; after the body at tile t each input's buffer at
    its block and the output's at out1_3 of the input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at tile t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

end Region

end Cert.Kernel.Walk

end
-- ==== Proof.K.Run.lean ====
/-
  The whole program as a walk through its five segments — the host operations up to the mean of the gathered rows,
  the padding of the weight matrix, the two kernel regions, the final slice — with the contents of every buffer
  named at each boundary: a host stretch applies its operations; a region leaves its arrays at what its tiles wrote
  back and every other buffer as it found it. Every weakly fair execution terminates, and at the end every unscoped
  buffer holds the last boundary's contents; in particular the three arguments are as launched.
-/
import proofs.«178366_j68152541053411_1_alg».proof.Proof.K.StatsBody
import proofs.«178366_j68152541053411_1_alg».proof.Proof.K.Norm
import proofs.«178366_j68152541053411_1_alg».proof.Proof.Gen.Kernel.Regions

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch; after the first host stretch; after the padding (the first region's entry). -/
abbrev W0 : Dev nD → Valuation τ sig (Elt F) := fun c => V0 m c
abbrev W1 : Dev nD → Valuation τ sig (Elt F) := fun c => V1 m c
abbrev W2 : Dev nD → Valuation τ sig (Elt F) := fun c => V2 m c
/-- The same read at the TensorCore's references. -/
abbrev E2 : (c : Dev nD) → (b : Ref sig .tc) → Buf (Elt F) ((c : Thread nD τ).loc b) := fun c b => W2 m c b
/-- At the first region's exit: its arrays at what the pipeline leaves, every other buffer as entered. -/
def W3 (c : Dev nD) : Valuation τ sig (Elt F) :=
  Pipeline.withArrays spec0 c (W2 m c) fun w => (dat0 (E2 m) c).arrAt w cfg0.N
theorem W3_arr (c : Dev nD) (w : Fin cfg0.W) :
    W3 m c (Proc.devRef .tc (Pipeline.arrRef spec0 w)) = (dat0 (E2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev E3 : (c : Dev nD) → (b : Ref sig .tc) → Buf (Elt F) ((c : Thread nD τ).loc b) := fun c b => W3 m c b
theorem hF0 (c : Dev nD) (w : Fin cfg0.W) : (dat0 (E2 m) c).arrAt w cfg0.N = E3 m c (Pipeline.arrRef spec0 w) :=
  (W3_arr m c w).symm
theorem hrest0 (c : Dev nD) : ∀ b, b ∉ Finset.univ.image (Pipeline.arrRef spec0) → E3 m c b = E2 m c b :=
  fun b hb => W3_of_ne m c b fun w e => hb (Finset.mem_image.mpr ⟨w, Finset.mem_univ _, e⟩)
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- After the final slice. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := V2_of m c main_arg0 (by decide)
    _ = W0 m c (Proc.devRef .tc main_arg0) := V1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := V2_of m c main_arg1 (by decide)
    _ = W0 m c (Proc.devRef .tc main_arg1) := V1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := V2_of m c main_arg2 (by decide)
    _ = W0 m c (Proc.devRef .tc main_arg2) := V1_of m c main_arg2 (by decide)
    _ = m ((c : Thread nD τ).loc main_arg2) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E2 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The first region: entered with every unscoped buffer at W2, left at W3. Its arrays are split out of the unscoped
    buffers and put back at the exit contents; the scoped rest and the generator register go into the region's
    invariant — which from the first tile on names the scratch columns' contents — and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E2 m) c).Φ 0 from rfl]
    refine BIBase.Entails.trans ?_ (hin0 (E2 m) c)
    unfold Pipeline.ΦA
    iintro ⟨Hp, -, Hr⟩
    isplitl [Hr]; · iexact Hr
    iexact Hp
  hout c := by
    rw [Pipeline.ownSems0_none, show (pdats m 0 c).Φ (Fin.last _) = (dat0 (E2 m) c).Φ (Fin.last cfg0.N) from rfl]
    refine BIBase.Entails.trans (hout0 (E2 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E2 m c) (E3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at W3, left at W4; nothing is kept between its tiles. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .host (hseg hostOps2 hostOps2_sub hostOps2_fresh (W4 m)) ]

set_option backward.isDefEq.respectTransparency.types false in
/-- Every weakly fair execution of the program terminates, nothing faulting, and every final state holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The program's frame: it runs to the end, nothing faults, and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.Kernel.Walk

end
-- ==== Proof.KI.StatsShared.lean ====
/-
  The first kernel region — the pass that walks the vocabulary tile by tile keeping, per row, a running maximum and a
  running sum of exponentials in two scratch columns — seen from the pipeline: the two conditions of its body decided
  over the grid (the first tile resets the pair, the last tile writes maximum + log sum to the output column), where
  its output window is idle, and the staging and scratch buffers the body is handed.
-/
import proofs.«178366_j68152541053411_1_alg».proof.Proof.Gen.KernelIdeal.Launch
import proofs.«178366_j68152541053411_1_alg».proof.Proof.Gen.KernelIdeal.Skeleton
import proofs.«178366_j68152541053411_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two conditions over the grid -/

/-- The body's first condition: this is the first tile. -/
abbrev cond0_0 (i : grid0.Coords) : Prop := (Scalar.cmpi .ne (Scalar.extui (Scalar.cmpi .eq (BitVec.ofNat 32 (i 0).val) 0#32)) 0#32) = 1#1
/-- It holds at tile 0 only. -/
theorem hcond0_0 : ∀ t : Fin cfg0.N, cond0_0 (grid0.coords t) ↔ t.val = 0 :=
  (by decide +kernel : ∀ t : Fin grid0.N, cond0_0 (grid0.coords t) ↔ t.val = 0)

/-- The body's second condition: this is the last tile. -/
abbrev cond0_1 (i : grid0.Coords) : Prop := k0_cond2 i = 1#1
/-- It holds at tile 97 only. -/
theorem hcond0_1 : ∀ t : Fin cfg0.N, cond0_1 (grid0.coords t) ↔ t.val = 97 :=
  (by decide +kernel : ∀ t : Fin grid0.N, cond0_1 (grid0.coords t) ↔ t.val = 97)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last tile nothing is stored into the output column's buffer, -/
theorem idleAt0_2 : ∀ t : Fin cfg0.N, ¬cond0_1 (grid0.coords t) → cfg0.idle 2 (grid0.coords t) = true := by decide +kernel
/-- and it is not written back there; -/
theorem noFlush0_2 : ∀ t : Fin cfg0.N, ¬cond0_1 (grid0.coords t) → (cfg0.win 2).flush t = false := by decide +kernel
/-- at the last tile it is stored. -/
theorem liveAt0_2 : ∀ t : Fin cfg0.N, cond0_1 (grid0.coords t) → cfg0.idle 2 (grid0.coords t) = false := by decide +kernel

/-! ## The buffers the body is handed -/

abbrev VO0_2 : View sig .tc .vmem S2048x1 .f32 := (Memref.whole cc0_stg2_0 : Memref sig .tc .vmem S2048x1 .f32).view
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The two scratch columns: the running maximum and the running sum. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

end Cert.KernelIdeal.Walk

end
-- ==== Proof.KI.StatsRunA.lean ====
/-
  The first tile (the pair is reset, then updated; nothing is stored to the output column).
-/
import proofs.«178366_j68152541053411_1_alg».proof.Proof.KI.StatsShared

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave (last first), with the proof that the body, handed its buffers at the
    stated contents, runs to the continuation holding them with those pieces written. -/
noncomputable def kernelRun0_A (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32) :
    Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Walk

end
-- ==== Proof.KI.StatsRunB.lean ====
/-
  A middle tile (the pair is updated from what the tile before left; nothing is stored to the output column).
-/
import proofs.«178366_j68152541053411_1_alg».proof.Proof.KI.StatsRunA

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave (last first), with the proof that the body, handed its buffers at the
    stated contents, runs to the continuation holding them with those pieces written. -/
noncomputable def kernelRun0_B (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) :
    Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Walk

end
-- ==== Proof.KI.StatsRunC.lean ====
/-
  The last tile (the pair is updated, then maximum + log sum is stored to the output column).
-/
import proofs.«178366_j68152541053411_1_alg».proof.Proof.KI.StatsRunB

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave (last first), with the proof that the body, handed its buffers at the
    stated contents, runs to the continuation holding them with those pieces written. -/
noncomputable def kernelRun0_C (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) :
    Σ' (L2 : List (View.Piece (Elt F) S2048x1 .f32)), Σ' (LS0 : List (View.Piece (Elt F) S2048x1 .f32)), { LS1 : List (View.Piece (Elt F) S2048x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Walk

end
-- ==== Proof.KI.Stats.lean ====
/-
  The first kernel region's proof data. Per row the two scratch columns hold, after tile t, the running maximum m(t)
  and the running sum l(t); the output column is stored once, at the last tile, with m + log l. Here: what each of the
  three cases of the body (first tile, a middle tile, the last tile) leaves in the scratch columns and in the output
  column, as what its stores wrote; those contents tile after tile, each tile's from the one before; the region's
  invariant carrying the two scratch columns at exactly those contents; and the per-tile obligation, case by case.
-/
import proofs.«178366_j68152541053411_1_alg».proof.Proof.KI.StatsRunC

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every tile, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  (y : S2048x1.Idx) :
    ∃ pc ∈ (kernelRun0_A c i arg1 harg1 arg2 harg2 arg3 harg3 arg4 harg4 arg5 harg5 hc0 hc1 x0 x1 ).1, y ∈ pc.1.set :=
  View.cover_of_tiledL (kernelRun0_A c i arg1 harg1 arg2 harg2 arg3 harg3 arg4 harg4 arg5 harg5 hc0 hc1 x0 x1 ).1 S2048x1.size (by sl_kernel_rfl) y
theorem scover0_A_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  (y : S2048x1.Idx) :
    ∃ pc ∈ (kernelRun0_A c i arg1 harg1 arg2 harg2 arg3 harg3 arg4 harg4 arg5 harg5 hc0 hc1 x0 x1 ).2.1, y ∈ pc.1.set :=
  View.cover_of_tiledL (kernelRun0_A c i arg1 harg1 arg2 harg2 arg3 harg3 arg4 harg4 arg5 harg5 hc0 hc1 x0 x1 ).2.1 S2048x1.size (by sl_kernel_rfl) y
def sout0_A_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  : Vec F S2048x1 .f32 :=
  VS0_0.read (Elt F) (VS0_0.writes (Elt F) VS0_0.junk (kernelRun0_A c i arg1 harg1 arg2 harg2 arg3 harg3 arg4 harg4 arg5 harg5 hc0 hc1 x0 x1 ).1)
def sout0_A_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  : Vec F S2048x1 .f32 :=
  VS0_1.read (Elt F) (VS0_1.writes (Elt F) VS0_1.junk (kernelRun0_A c i arg1 harg1 arg2 harg2 arg3 harg3 arg4 harg4 arg5 harg5 hc0 hc1 x0 x1 ).2.1)

theorem scover0_B_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) (y : S2048x1.Idx) :
    ∃ pc ∈ (kernelRun0_B c i arg1 harg1 arg2 harg2 arg3 harg3 arg4 harg4 arg5 harg5 hc0 hc1 x0 x1 xs0 xs1).1, y ∈ pc.1.set :=
  View.cover_of_tiledL (kernelRun0_B c i arg1 harg1 arg2 harg2 arg3 harg3 arg4 harg4 arg5 harg5 hc0 hc1 x0 x1 xs0 xs1).1 S2048x1.size (by sl_kernel_rfl) y
theorem scover0_B_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) (y : S2048x1.Idx) :
    ∃ pc ∈ (kernelRun0_B c i arg1 harg1 arg2 harg2 arg3 harg3 arg4 harg4 arg5 harg5 hc0 hc1 x0 x1 xs0 xs1).2.1, y ∈ pc.1.set :=
  View.cover_of_tiledL (kernelRun0_B c i arg1 harg1 arg2 harg2 arg3 harg3 arg4 harg4 arg5 harg5 hc0 hc1 x0 x1 xs0 xs1).2.1 S2048x1.size (by sl_kernel_rfl) y
def sout0_B_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) : Vec F S2048x1 .f32 :=
  VS0_0.read (Elt F) (VS0_0.writes (Elt F) VS0_0.junk (kernelRun0_B c i arg1 harg1 arg2 harg2 arg3 harg3 arg4 harg4 arg5 harg5 hc0 hc1 x0 x1 xs0 xs1).1)
def sout0_B_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) : Vec F S2048x1 .f32 :=
  VS0_1.read (Elt F) (VS0_1.writes (Elt F) VS0_1.junk (kernelRun0_B c i arg1 harg1 arg2 harg2 arg3 harg3 arg4 harg4 arg5 harg5 hc0 hc1 x0 x1 xs0 xs1).2.1)

theorem cover0_C_2 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) (y : S2048x1.Idx) :
    ∃ pc ∈ (kernelRun0_C c i arg1 harg1 arg2 harg2 arg3 harg3 arg4 harg4 arg5 harg5 hc0 hc1 x0 x1 xs0 xs1).1, y ∈ pc.1.set :=
  View.cover_of_tiledL (kernelRun0_C c i arg1 harg1 arg2 harg2 arg3 harg3 arg4 harg4 arg5 harg5 hc0 hc1 x0 x1 xs0 xs1).1 S2048x1.size (by sl_kernel_rfl) y
theorem scover0_C_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) (y : S2048x1.Idx) :
    ∃ pc ∈ (kernelRun0_C c i arg1 harg1 arg2 harg2 arg3 harg3 arg4 harg4 arg5 harg5 hc0 hc1 x0 x1 xs0 xs1).2.1, y ∈ pc.1.set :=
  View.cover_of_tiledL (kernelRun0_C c i arg1 harg1 arg2 harg2 arg3 harg3 arg4 harg4 arg5 harg5 hc0 hc1 x0 x1 xs0 xs1).2.1 S2048x1.size (by sl_kernel_rfl) y
theorem scover0_C_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) (y : S2048x1.Idx) :
    ∃ pc ∈ (kernelRun0_C c i arg1 harg1 arg2 harg2 arg3 harg3 arg4 harg4 arg5 harg5 hc0 hc1 x0 x1 xs0 xs1).2.2.1, y ∈ pc.1.set :=
  View.cover_of_tiledL (kernelRun0_C c i arg1 harg1 arg2 harg2 arg3 harg3 arg4 harg4 arg5 harg5 hc0 hc1 x0 x1 xs0 xs1).2.2.1 S2048x1.size (by sl_kernel_rfl) y
def out0_C_2 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) : Vec F S2048x1 .f32 :=
  VO0_2.read (Elt F) (VO0_2.writes (Elt F) VO0_2.junk (kernelRun0_C c i arg1 harg1 arg2 harg2 arg3 harg3 arg4 harg4 arg5 harg5 hc0 hc1 x0 x1 xs0 xs1).1)
def sout0_C_0 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) : Vec F S2048x1 .f32 :=
  VS0_0.read (Elt F) (VS0_0.writes (Elt F) VS0_0.junk (kernelRun0_C c i arg1 harg1 arg2 harg2 arg3 harg3 arg4 harg4 arg5 harg5 hc0 hc1 x0 x1 xs0 xs1).2.1)
def sout0_C_1 (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) : Vec F S2048x1 .f32 :=
  VS0_1.read (Elt F) (VS0_1.writes (Elt F) VS0_1.junk (kernelRun0_C c i arg1 harg1 arg2 harg2 arg3 harg3 arg4 harg4 arg5 harg5 hc0 hc1 x0 x1 xs0 xs1).2.2.1)

/-- A placeholder for the output column where no tile stores it (nothing consults it: the window is idle there). -/
def unstored : Vec F S2048x1 .f32 := VO0_2.read (Elt F) VO0_2.junk

/-! ## Tile after tile -/

/-- What the output column's buffer and the two scratch columns hold after the body at tile n: the case the tile is
    in, run on the tile's blocks and on what tile n − 1 left in the scratch columns. -/
def outsAt0 (c : Dev nD) : (n : ℕ) → n < cfg0.N → Vec F S2048x1 .f32 × Vec F S2048x1 .f32 × Vec F S2048x1 .f32
  | 0, hn =>
    (unstored,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => by have h' : (0 : ℕ) = 97 := (hcond0_1 ⟨0, hn⟩).mp h; omega) (iblk0 V c 0 ⟨0, hn⟩) (iblk0 V c 1 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => by have h' : (0 : ℕ) = 97 := (hcond0_1 ⟨0, hn⟩).mp h; omega) (iblk0 V c 0 ⟨0, hn⟩) (iblk0 V c 1 ⟨0, hn⟩))
  | n + 1, hn =>
    if h1 : n + 1 = 97 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
    else
      (unstored,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => by have h' : n + 1 = 0 := (hcond0_0 ⟨n + 1, hn⟩).mp h; omega) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- The first tile. -/
theorem outsAt0_A (c : Dev nD) (t : Fin cfg0.N) (h0 : t.val = 0) (h1 : ¬t.val = 97) :
    outsAt0 V c t.val t.isLt = (unstored,
      sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t),
      sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

/-- A middle tile, over what the tile before left. -/
theorem outsAt0_B (c : Dev nD) (t : Fin cfg0.N) (h0 : ¬t.val = 0) (h1 : ¬t.val = 97) :
    outsAt0 V c t.val t.isLt = (unstored,
      sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl h0
  | succ n => exact (dif_neg h1).trans rfl

/-- The last tile, over what the tile before left. -/
theorem outsAt0_C (c : Dev nD) (t : Fin cfg0.N) (h0 : ¬t.val = 0) (h1 : t.val = 97) :
    outsAt0 V c t.val t.isLt = (
      out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl h0
  | succ n => exact (dif_pos h1).trans rfl

/-! ## The invariant -/

/-- The core's other scoped buffers (the second region's staging buffers), each whole at some contents. -/
def Rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest6 c) ∗ (∃ r, prngReg c r)) := by
  unfold Pipeline.ΦA Rest6; rw [scopedRest0_eq]; simp only [scM0_0, scM0_1, owns_whole]; try rfl

/-- The region's invariant before tile n: before the first tile the scratch columns hold anything; afterwards
    exactly what tile n − 1 left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Rest6 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ Rest6 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ Rest6 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.KernelIdeal.Walk

end
-- ==== Proof.KI.StatsBody.lean ====
/-
  The first kernel region's per-tile obligation. At each tile the body is handed the two input blocks, the output
  column's buffer and, through the invariant, the two scratch columns at what the tile before left (at anything before
  the first tile); it returns the scratch columns at this tile's contents. Three cases: the first tile, a middle
  tile, the last tile (the only one that stores the output column).
-/
import proofs.«178366_j68152541053411_1_alg».proof.Proof.KI.Stats

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-- What the body is called with at tile t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  by_cases h0 : t.val = 0
  · have h1 : ¬t.val = 97 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 _ _ _ _ _ _ _ _ _ _ _ _ _ _ _ _)
        isplitl [HS1]
        · unfold owns; iexists _; isplitr
          swap; · iexact HS1
          ipureintro; exact View.read_writes_of_cover _ _ _ _ _ (scover0_A_1 _ _ _ _ _ _ _ _ _ _ _ _ _ _ _ _)
        iexact HR
      iexact Hg
    isplitl [Ho]; · iexact Ho
    isplitl [H0]; · iexact H0
    isplitl [H1]; · iexact H1
    iexists _; iexact H2
  · by_cases h1 : t.val = 97
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0 sout0_C_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 _ _ _ _ _ _ _ _ _ _ _ _ _ _ _ _ _ _)
          isplitl [HS1]
          · unfold owns; iexists _; isplitr
            swap; · iexact HS1
            ipureintro; exact View.read_writes_of_cover _ _ _ _ _ (scover0_C_1 _ _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 _ _ _ _ _ _ _ _ _ _ _ _ _ _ _ _ _ _)
    · skip
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0 sout0_B_1; (try dsimp only)
      rw [PhiS_castSucc V c t, PhiS_pos V c _ _ h0]
      iintro ⟨⟨⟨HS0, HS1, HR⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 _ _ _ _ _ _ _ _ _ _ _ _ _ _ _ _ _ _)
          isplitl [HS1]
          · unfold owns; iexists _; isplitr
            swap; · iexact HS1
            ipureintro; exact View.read_writes_of_cover _ _ _ _ _ (scover0_B_1 _ _ _ _ _ _ _ _ _ _ _ _ _ _ _ _ _ _)
          iexact HR
        iexact Hg
      isplitl [Ho]; · iexact Ho
      isplitl [H0]; · iexact H0
      isplitl [H1]; · iexact H1
      iexists _; iexact H2

/-- The pipeline's body obligation, at every tile. -/
theorem body_obligation0 (c : Dev nD) : BodyObligation (dat0 (F := F) V c) (defs₀ (F := F)) Variants.none () Set.univ := fun t => by
  rw [bigSep_W0, bigSep_W0]
  exact sound_body0 V c t

/-- What the region is handed is the invariant before the first tile. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any tile the invariant gives the class invariant back: the scratch columns' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last tile. -/
theorem hout0 (c : Dev nD) : (dat0 V c).Φ (Fin.last cfg0.N) ⊢ Pipeline.ΦA spec0 c :=
  Phi_out0 V c _ (by rw [Fin.val_last]; have : cfg0.N = 98 := N_0; omega)

end Region

end Cert.KernelIdeal.Walk

end
-- ==== Proof.KI.Norm.lean ====
/-
  The second kernel region — the pass that recomputes each tile of logits and writes exp(logit − lse) — seen from the
  pipeline, at a parameter V for the buffers' contents when the region is entered: each window's block at a tile,
  what the body leaves in the output block as a function of the three input blocks, the body's run, and the
  pipeline's proof data with its per-tile obligation. Nothing is kept between tiles.
-/
import proofs.«178366_j68152541053411_1_alg».proof.Proof.Gen.KernelIdeal.Launch
import proofs.«178366_j68152541053411_1_alg».proof.Proof.Gen.KernelIdeal.Skeleton
import proofs.«178366_j68152541053411_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-- Window w's block at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x128 := Rect.unit (s := S2048x128) ![0, 0] S2048x128.size inb_S2048x128_S2048x128_0_0
abbrev r1_1 : Rect S128x512 := Rect.unit (s := S128x512) ![0, 0] S128x512.size inb_S128x512_S128x512_0_0
abbrev r1_2 : Rect S2048x1 := Rect.unit (s := S2048x1) ![0, 0] S2048x1.size inb_S2048x1_S2048x1_0_0
abbrev r1_3 : Rect S2048x512 := Rect.unit (s := S2048x512) ![0, 0] S2048x512.size inb_S2048x512_S2048x512_0_0

/-- The output block after the body, from the three input blocks: its one store. -/
def out1_3 (x0 : Vec F S2048x128 .f32) (x1 : Vec F S128x512 .f32) (x2 : Vec F S2048x1 .f32) : Vec F S2048x512 .f32 :=
  View.canon [⟨r1_3, k1_pay1 (View.ld x0 r1_0) (View.ld x1 r1_1) (View.ld x2 r1_2)⟩]

/-- The one store covers the block. -/
theorem cover1_3 (p0 : Vec F S2048x512 .f32) (y : S2048x512.Idx) :
    ∃ pc ∈ ([⟨r1_3, p0⟩] : List (View.Piece (Elt F) S2048x512 .f32)), y ∈ pc.1.set :=
  View.cover_of_tiled [⟨r1_3, p0⟩] S2048x512.size (by rfl) y

set_option maxHeartbeats 2000000 in
/-- The body on whole staging buffers, the inputs at their contents and the output at anything, runs to the
    continuation holding the inputs as they were and the output at out1_3 of them. -/
theorem sound_kernel1 (c : Dev nD) (E : Set ℕ) (i : grid1.Coords) (arg1 : Memref sig .tc .vmem S2048x128 .f32) (harg1 : arg1.IsWhole) (arg2 : Memref sig .tc .vmem S128x512 .f32) (harg2 : arg2.IsWhole) (arg3 : Memref sig .tc .vmem S2048x1 .f32) (harg3 : arg3.IsWhole) (arg4 : Memref sig .tc .vmem S2048x512 .f32) (harg4 : arg4.IsWhole)
    (x0 : Vec F S2048x128 .f32) (x1 : Vec F S128x512 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data: the arrays as the region finds them; after the body at tile t each input's buffer at
    its block and the output's at out1_3 of the input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at tile t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Walk

end
-- ==== Proof.KI.Run.lean ====
/-
  The whole program as a walk through its five segments — the host operations up to the mean of the gathered rows,
  the padding of the weight matrix, the two kernel regions, the final slice — with the contents of every buffer
  named at each boundary: a host stretch applies its operations; a region leaves its arrays at what its tiles wrote
  back and every other buffer as it found it. Every weakly fair execution terminates, and at the end every unscoped
  buffer holds the last boundary's contents; in particular the three arguments are as launched.
-/
import proofs.«178366_j68152541053411_1_alg».proof.Proof.KI.StatsBody
import proofs.«178366_j68152541053411_1_alg».proof.Proof.KI.Norm
import proofs.«178366_j68152541053411_1_alg».proof.Proof.Gen.KernelIdeal.Regions

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch; after the first host stretch; after the padding (the first region's entry). -/
abbrev W0 : Dev nD → Valuation τ sig (Elt F) := fun c => V0 m c
abbrev W1 : Dev nD → Valuation τ sig (Elt F) := fun c => V1 m c
abbrev W2 : Dev nD → Valuation τ sig (Elt F) := fun c => V2 m c
/-- The same read at the TensorCore's references. -/
abbrev E2 : (c : Dev nD) → (b : Ref sig .tc) → Buf (Elt F) ((c : Thread nD τ).loc b) := fun c b => W2 m c b
/-- At the first region's exit: its arrays at what the pipeline leaves, every other buffer as entered. -/
def W3 (c : Dev nD) : Valuation τ sig (Elt F) :=
  Pipeline.withArrays spec0 c (W2 m c) fun w => (dat0 (E2 m) c).arrAt w cfg0.N
theorem W3_arr (c : Dev nD) (w : Fin cfg0.W) :
    W3 m c (Proc.devRef .tc (Pipeline.arrRef spec0 w)) = (dat0 (E2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev E3 : (c : Dev nD) → (b : Ref sig .tc) → Buf (Elt F) ((c : Thread nD τ).loc b) := fun c b => W3 m c b
theorem hF0 (c : Dev nD) (w : Fin cfg0.W) : (dat0 (E2 m) c).arrAt w cfg0.N = E3 m c (Pipeline.arrRef spec0 w) :=
  (W3_arr m c w).symm
theorem hrest0 (c : Dev nD) : ∀ b, b ∉ Finset.univ.image (Pipeline.arrRef spec0) → E3 m c b = E2 m c b :=
  fun b hb => W3_of_ne m c b fun w e => hb (Finset.mem_image.mpr ⟨w, Finset.mem_univ _, e⟩)
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- After the final slice. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := V2_of m c main_arg0 (by decide)
    _ = W0 m c (Proc.devRef .tc main_arg0) := V1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := V2_of m c main_arg1 (by decide)
    _ = W0 m c (Proc.devRef .tc main_arg1) := V1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := V2_of m c main_arg2 (by decide)
    _ = W0 m c (Proc.devRef .tc main_arg2) := V1_of m c main_arg2 (by decide)
    _ = m ((c : Thread nD τ).loc main_arg2) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E2 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The first region: entered with every unscoped buffer at W2, left at W3. Its arrays are split out of the unscoped
    buffers and put back at the exit contents; the scoped rest and the generator register go into the region's
    invariant — which from the first tile on names the scratch columns' contents — and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E2 m) c).Φ 0 from rfl]
    refine BIBase.Entails.trans ?_ (hin0 (E2 m) c)
    unfold Pipeline.ΦA
    iintro ⟨Hp, -, Hr⟩
    isplitl [Hr]; · iexact Hr
    iexact Hp
  hout c := by
    rw [Pipeline.ownSems0_none, show (pdats m 0 c).Φ (Fin.last _) = (dat0 (E2 m) c).Φ (Fin.last cfg0.N) from rfl]
    refine BIBase.Entails.trans (hout0 (E2 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E2 m c) (E3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at W3, left at W4; nothing is kept between its tiles. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .host (hseg hostOps2 hostOps2_sub hostOps2_fresh (W4 m)) ]

set_option backward.isDefEq.respectTransparency.types false in
/-- Every weakly fair execution of the program terminates, nothing faulting, and every final state holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The program's frame: it runs to the end, nothing faults, and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Walk

end
-- ==== Proof.KI.StatsBlocks.lean ====
/-
  The first kernel region's blocks at coordinates. The activations' window is the whole [2048,128] array at every
  tile; tile t of the padded weights holds columns 1024·t … 1024·t + 1023; the output column's one block is the
  whole [2048,1] array, written back once, at the last tile — so after the run that array holds what the last tile
  stored.
-/
import proofs.«178366_j68152541053411_1_alg».proof.Proof.KI.StatsBody
import Idealize.ShloMosaic.Lib.Pipeline.Value
import Idealize.ShloMosaic.Lib.ValueIdx

set_option maxRecDepth 16384

noncomputable section

namespace Cert.KernelIdeal.Walk

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The printed index maps over the grid: only the weights' window moves, one block of columns per tile. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

/-- The activations' block at any tile is the activations. -/
theorem iblk0_0_apply (c : Dev nD) (t : Fin cfg0.N) (r : Fin 2048) (q : Fin 128) :
    (iblk0 V c 0 t : S2048x128.Idx → EReal) (ix2 r q) = (V c main_v9 : S2048x128.Idx → EReal) (ix2 r q) := by
  obtain ⟨e0, e1, -, -, -, -⟩ := idx_facts0 t
  show (V c main_v9 : S2048x128.Idx → EReal) (((cfg0.win 0).blk t).view.emb (ix2 r q)) = _
  refine congrArg _ ?_
  funext a; apply Fin.ext
  match a with
  | ⟨0, _⟩ => show win0_0.index t (0 : Fin 2) * 2048 + 1 * r.val = r.val; omega
  | ⟨1, _⟩ => show win0_0.index t (1 : Fin 2) * 128 + 1 * q.val = q.val; omega

/-- Tile t of the padded weights: lane b is column 1024·t + b. -/
theorem iblk0_1_apply (c : Dev nD) (t : Fin cfg0.N) (q : Fin 128) (b : Fin 1024) :
    (iblk0 V c 1 t : S128x1024.Idx → EReal) (ix2 q b)
      = (V c main_v10 : S128x100352.Idx → EReal) (ix2 q ⟨t.val * 1024 + b.val, by have := t.isLt; have : cfg0.N = 98 := N_0; have := b.isLt; omega⟩) := by
  obtain ⟨-, -, e2, e3, -, -⟩ := idx_facts0 t
  show (V c main_v10 : S128x100352.Idx → EReal) (((cfg0.win 1).blk t).view.emb (ix2 q b)) = _
  refine congrArg _ ?_
  funext a; apply Fin.ext
  match a with
  | ⟨0, _⟩ => show win0_1.index t (0 : Fin 2) * 128 + 1 * q.val = q.val; omega
  | ⟨1, _⟩ => show win0_1.index t (1 : Fin 2) * 1024 + 1 * b.val = t.val * 1024 + b.val; omega

/-- The last tile. -/
abbrev tLast : Fin cfg0.N := ⟨97, by rw [show cfg0.N = 98 from N_0]; decide⟩

/-- The one write-back, at the last tile, writes what that tile stored: the block is the whole column. -/
theorem flushed0_2_eq (c : Dev nD) (t : Fin cfg0.N) (hf : (cfg0.win 2).flush t = true) :
    (dat0 V c).flushed 2 t = ((cfg0.win 2).blk t).view.read (Elt Ideal) ((outsAt0 V c 97 tLast.isLt).1) := by
  have hN : cfg0.N = 98 := N_0
  have h97 : t.val = 97 := by have := (flush0_2 t).mp hf; have := t.isLt; omega
  obtain rfl : t = tLast := Fin.ext h97
  show (cfg0.win 2).cut (grid0.coords tLast) ((dat0 V c).after 2 tLast) = _
  rw [after0_2]
  have hz' : (fun a => win0_2.index tLast a * main_v11.ty.shape.size a) = fun _ => 0 := funext fun a => by fin_cases a <;> decide
  exact (Memref.read_access_unit_zero (Elt Ideal) main_v11 hz' (fun a => by rw [congrFun hz' a]; simp) ((outsAt0 V c 97 tLast.isLt).1)).symm

/-- An index of the column is in a tile's block iff each coordinate is in the block's range. -/
theorem mem_blk0_2 (t : Fin cfg0.N) (i : S2048x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v11).slice (win0_2.rect t)).set ↔ _
  rw [View.set_slice_whole, Rect.mem_set_unit]
  exact Iff.rfl

/-- So the output column's array ends holding what the last tile stored. -/
theorem final0 (c : Dev nD) : (dat0 V c).arrAt 2 cfg0.N = (outsAt0 V c 97 tLast.isLt).1 :=
  (dat0 V c).arrAt_eq_of_cover 2 _ (fun t hf => flushed0_2_eq V c t hf) (fun i => by
    refine ⟨tLast, (flush0_2 tLast).mpr (by decide), ?_⟩
    rw [mem_blk0_2]
    obtain ⟨-, -, -, -, e4, e5⟩ := idx_facts0 tLast
    intro a
    match a with
    | ⟨0, _⟩ => show win0_2.index tLast (0 : Fin 2) * 2048 ≤ (i 0).val ∧ (i 0).val < win0_2.index tLast (0 : Fin 2) * 2048 + 2048; have h0 : (i 0).val < 2048 := (i 0).isLt; omega
    | ⟨1, _⟩ => show win0_2.index tLast (1 : Fin 2) * 1 ≤ (i 1).val ∧ (i 1).val < win0_2.index tLast (1 : Fin 2) * 1 + 1; have h1 : (i 1).val < 1 := (i 1).isLt; omega)

end Cert.KernelIdeal.Walk

end
-- ==== Proof.KI.StatsPieces.lean ====
/-
  What each case of the first kernel's body leaves, read back as the body's arithmetic: the running maximum column is
  max(previous maximum, the tile's row maxima); the running sum column is exp(previous maximum − new maximum)·previous
  sum + the row sums of exp(tile − new maximum); at the first tile "previous" is the pair the reset stored (−∞, 0);
  at the last tile the output column is new maximum + log(new sum).
-/
import proofs.«178366_j68152541053411_1_alg».proof.Proof.KI.Stats
import Idealize.ShloMosaic.Lib.Pipeline.Value

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz : (![0, 0] : Fin 2 → Nat) = fun _ => 0 := funext fun a => by fin_cases a <;> rfl

/-! ## A middle tile -/
theorem sout0_B_0_eq (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) :
    sout0_B_0 c i arg1 harg1 arg2 harg2 arg3 harg3 arg4 harg4 arg5 harg5 hc0 hc1 x0 x1 xs0 xs1 = k0_pay1 (k0_pay6 i x0 x1 xs0) := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_unit_zero (S := S2048x1) hz]
  simp only [View.readCov_unit_zero (S := S2048x1) _ hz, View.readAt_eq_ld, harg1.read_unread, harg2.read_unread, harg4.read_unread, harg5.read_unread,
    View.ld_unit_zero (S := S2048x128) hz, View.ld_unit_zero (S := S128x1024) hz, View.ld_unit_zero (S := S2048x1) hz]
theorem sout0_B_1_eq (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : ¬cond0_1 i)
    (x0 : Vec F S2048x128 .f32) (x1 : Vec F S128x1024 .f32) (xs0 : Vec F S2048x1 .f32) (xs1 : Vec F S2048x1 .f32) :
    sout0_B_1 c i arg1 harg1 arg2 harg2 arg3 harg3 arg4 harg4 arg5 harg5 hc0 hc1 x0 x1 xs0 xs1 = k0_pay7 i x0 x1 xs0 xs0 xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_unit_zero (S := S2048x1) hz]
  simp only [View.readCov_unit_zero (S := S2048x1) _ hz, View.readAt_eq_ld, harg1.read_unread, harg2.read_unread, harg4.read_unread, harg5.read_unread,
    View.ld_unit_zero (S := S2048x128) hz, View.ld_unit_zero (S := S128x1024) hz, View.ld_unit_zero (S := S2048x1) hz]

/-! ## The last tile -/
theorem sout0_C_0_eq (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) :
    sout0_C_0 c i arg1 harg1 arg2 harg2 arg3 harg3 arg4 harg4 arg5 harg5 hc0 hc1 x0 x1 xs0 xs1 = k0_pay1 (k0_pay6 i x0 x1 xs0) := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero (S := S2048x1) hz]
  simp only [View.readCov_unit_zero (S := S2048x1) _ hz, View.readAt_eq_ld, harg1.read_unread, harg2.read_unread, harg4.read_unread, harg5.read_unread,
    View.ld_unit_zero (S := S2048x128) hz, View.ld_unit_zero (S := S128x1024) hz, View.ld_unit_zero (S := S2048x1) hz]
theorem sout0_C_1_eq (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) :
    sout0_C_1 c i arg1 harg1 arg2 harg2 arg3 harg3 arg4 harg4 arg5 harg5 hc0 hc1 x0 x1 xs0 xs1 = k0_pay7 i x0 x1 xs0 xs0 xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero (S := S2048x1) hz]
  simp only [View.readCov_unit_zero (S := S2048x1) _ hz, View.readAt_eq_ld, harg1.read_unread, harg2.read_unread, harg4.read_unread, harg5.read_unread,
    View.ld_unit_zero (S := S2048x128) hz, View.ld_unit_zero (S := S128x1024) hz, View.ld_unit_zero (S := S2048x1) hz]
theorem out0_C_2_eq (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : ¬cond0_0 i) (hc1 : cond0_1 i)
    (x0 : Vec F S2048x128 .f32) (x1 : Vec F S128x1024 .f32) (xs0 : Vec F S2048x1 .f32) (xs1 : Vec F S2048x1 .f32) :
    out0_C_2 c i arg1 harg1 arg2 harg2 arg3 harg3 arg4 harg4 arg5 harg5 hc0 hc1 x0 x1 xs0 xs1 = k0_pay2 (k0_pay1 (k0_pay6 i x0 x1 xs0)) (k0_pay7 i x0 x1 xs0 xs0 xs1) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero (S := S2048x1) hz]
  simp only [View.readCov_unit_zero (S := S2048x1) _ hz, View.readAt_eq_ld, harg1.read_unread, harg2.read_unread, harg4.read_unread, harg5.read_unread,
    View.ld_unit_zero (S := S2048x128) hz, View.ld_unit_zero (S := S128x1024) hz, View.ld_unit_zero (S := S2048x1) hz]

/-! ## The first tile -/
theorem sout0_A_0_eq (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  :
    sout0_A_0 c i arg1 harg1 arg2 harg2 arg3 harg3 arg4 harg4 arg5 harg5 hc0 hc1 x0 x1  = k0_pay1 (k0_pay6 i x0 x1 (k0_pay3 (F := F))) := by
  unfold sout0_A_0
  rw [View.read_writes_eq_canon _ _ _ (scover0_A_0 c i arg1 harg1 arg2 harg2 arg3 harg3 arg4 harg4 arg5 harg5 hc0 hc1 x0 x1 )]
  unfold kernelRun0_A
  dsimp only
  sl_unfold_words
  rw [View.canon_cons_unit_zero (S := S2048x1) hz]
  simp only [View.readCov_unit_zero (S := S2048x1) _ hz, View.readAt_eq_ld, harg1.read_unread, harg2.read_unread, harg4.read_unread, harg5.read_unread,
    View.ld_unit_zero (S := S2048x128) hz, View.ld_unit_zero (S := S128x1024) hz, View.ld_unit_zero (S := S2048x1) hz]
theorem sout0_A_1_eq (c : Dev nD) (i : grid0.Coords) (arg1 : Memref sig .tc .vmem S2048x128 .f32) (harg1 : arg1.IsWhole) (arg2 : Memref sig .tc .vmem S128x1024 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (hc0 : cond0_0 i) (hc1 : ¬cond0_1 i)
    (x0 : Vec F S2048x128 .f32) (x1 : Vec F S128x1024 .f32)  :
    sout0_A_1 c i arg1 harg1 arg2 harg2 arg3 harg3 arg4 harg4 arg5 harg5 hc0 hc1 x0 x1  = k0_pay7 i x0 x1 (k0_pay3 (F := F)) (k0_pay3 (F := F)) (k0_pay4 (F := F)) := by
  unfold sout0_A_1
  rw [View.read_writes_eq_canon _ _ _ (scover0_A_1 c i arg1 harg1 arg2 harg2 arg3 harg3 arg4 harg4 arg5 harg5 hc0 hc1 x0 x1 )]
  unfold kernelRun0_A
  dsimp only
  sl_unfold_words
  rw [View.canon_cons_unit_zero (S := S2048x1) hz]
  simp only [View.readCov_unit_zero (S := S2048x1) _ hz, View.readAt_eq_ld, harg1.read_unread, harg2.read_unread, harg4.read_unread, harg5.read_unread,
    View.ld_unit_zero (S := S2048x128) hz, View.ld_unit_zero (S := S128x1024) hz, View.ld_unit_zero (S := S2048x1) hz]

end Cert.KernelIdeal.Walk

end
-- ==== Proof.Spec.lean ====
/-
  The softmax of the rows of a product of matrices, on the extended reals, in the two arrangements compared here.

  For a row of logits x(0..n-1): the plain form shifts by the row's maximum M (folded from −∞, and compared with −∞
  once more) and divides exp(x(j) − M) by Σ_k exp(x(k) − M).

  The tiled form walks the row in T tiles of B lanes (positions at or past n are absent and read −∞). It carries a
  pair (m, l), from (−∞, 0): at each tile m' = max m (max of the tile), l' = exp(m − m')·l + Σ_b exp(tile(b) − m'),
  and ends with m + log l, the logarithm of Σ_k exp x(k); the result is exp(x(j) − (m + log l)).
-/
import Idealize.ShloMosaic.PureOps.Ideal
import Idealize.ShloMosaic.Lib.ValueIdx

noncomputable section

namespace Cert.Softmax

open Idealize.ShloMosaic Idealize.ShloMosaic.ValueIdx
open scoped BigOperators

/-- The float −∞ both arrangements fold their maximum from. -/
def negInf : EReal := Ideal.ofBits .f32 0xFF800000#32

/-- The float zero both arrangements start their sums from. -/
def zeroF : EReal := Ideal.ofBits .f32 0x00000000#32

/-- Entry (r, j) of the product of an [a, k] matrix with a [k, n] matrix: row r against column j. -/
def logits {a k n : ℕ} (P : (⟨2, ![a, k]⟩ : Shape).Idx → EReal) (W : (⟨2, ![k, n]⟩ : Shape).Idx → EReal)
    (r : Fin a) (j : Fin n) : EReal :=
  ∑ q : Fin k, P (ix2 r q) * W (ix2 q j)

/-- A row's maximum in the plain form: −∞ against the fold of max from −∞ over the row. -/
def rowMax {n : ℕ} (x : Fin n → EReal) : EReal :=
  max negInf ((Finset.univ : Finset (Fin n)).fold max negInf x)

/-- The plain softmax of a row at position j. -/
def softmaxRow {n : ℕ} (x : Fin n → EReal) (j : Fin n) : EReal :=
  Ideal.div (Ideal.exp (x j - rowMax x)) (∑ k : Fin n, Ideal.exp (x k - rowMax x))

/-- Lane b of tile t of a row of n entries cut in tiles of B lanes; a position at or past n is absent: −∞. -/
def tileLane (B n : ℕ) (x : Fin n → EReal) (t : ℕ) (b : Fin B) : EReal :=
  if h : t * B + b.val < n then x ⟨t * B + b.val, h⟩ else ⊥

/-- One tile's update of the running pair (maximum so far, sum of exponentials relative to it). -/
def step {B : ℕ} (z : Fin B → EReal) (s : EReal × EReal) : EReal × EReal :=
  (max s.1 ((Finset.univ : Finset (Fin B)).fold max negInf z),
   Ideal.exp (s.1 - max s.1 ((Finset.univ : Finset (Fin B)).fold max negInf z)) * s.2
     + ∑ b : Fin B, Ideal.exp (z b - max s.1 ((Finset.univ : Finset (Fin B)).fold max negInf z)))

/-- The running pair after the first k tiles, from (−∞, 0). -/
def run {B : ℕ} (z : ℕ → Fin B → EReal) : ℕ → EReal × EReal
  | 0 => (negInf, zeroF)
  | k + 1 => step (z k) (run z k)

/-- The tiled form's result at position j of a row: exp of the entry less (m + log l) after all T tiles. -/
def tiledSoftmaxRow (T B : ℕ) {n : ℕ} (x : Fin n → EReal) (j : Fin n) : EReal :=
  Ideal.exp (x j - ((run (tileLane B n x) T).1 + Ideal.log (run (tileLane B n x) T).2))

end Cert.Softmax

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«178366_j68152541053411_1_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.PayloadDot.lean ====
/-
  The two kernels' matrix products read at coordinates: a [2048, 128] array against a [128, c] array into a zero
  accumulator is, at (r, b), the sum over q of left(r, q) · right(q, b).
-/
import proofs.«178366_j68152541053411_1_alg».proof.Proof.Gen.KernelIdeal.Skeleton
import proofs.«178366_j68152541053411_1_alg».proof.Proof.Spec
import proofs.«178366_j68152541053411_1_alg».proof.Proof.LibRowsDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen
open scoped BigOperators

/-- Left operand's row coordinate of the contraction's index map: the result's row. -/
theorem dotStats_lhs0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide),
    dif_pos (show (0 : Fin S2048x128.rank) ∈ dot_S2048x128_S128x1024_S2048x1024_1_0_0_1_n_n.lhsNonContracting by decide)]
  rfl

/-- Left operand's column coordinate: the contraction position. -/
theorem dotStats_lhs1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q

/-- Right operand's row coordinate: the contraction position. -/
theorem dotStats_rhs0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q

/-- Right operand's column coordinate: the result's column. -/
theorem dotStats_rhs1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide),
    dif_pos (show (1 : Fin S128x1024.rank) ∈ dot_S2048x128_S128x1024_S2048x1024_1_0_0_1_n_n.rhsNonContracting by decide)]
  rfl

/-- The [2048, 128] × [128, 1024] product into zeros at (r, b): the sum over q of left(r, q) · right(q, b). -/
theorem dotStats_apply {φ₁ φ₂ : FTy} (A : FVec Ideal S2048x128 φ₁) (W : FVec Ideal S128x1024 φ₂) (r : Fin 2048) (b : Fin 1024) :
    matmul dot_S2048x128_S128x1024_S2048x1024_1_0_0_1_n_n none A W (constant (F := Ideal) S2048x1024 .f32 0x00000000#32) (ix2 r b)
      = ∑ q : Fin 128, A (ix2 r q) * W (ix2 q b) :=
  Cert.Sage.matmul_zero_rows (n := 2048) (k := 128) (c := 1024) dot_S2048x128_S128x1024_S2048x1024_1_0_0_1_n_n rfl rfl
    dotStats_lhs0 dotStats_lhs1 dotStats_rhs0 dotStats_rhs1 none A W r b

/-- Left operand's row coordinate of the contraction's index map: the result's row. -/
theorem dotNorm_lhs0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide),
    dif_pos (show (0 : Fin S2048x128.rank) ∈ dot_S2048x128_S128x512_S2048x512_1_0_0_1_n_n.lhsNonContracting by decide)]
  rfl

/-- Left operand's column coordinate: the contraction position. -/
theorem dotNorm_lhs1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q

/-- Right operand's row coordinate: the contraction position. -/
theorem dotNorm_rhs0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q

/-- Right operand's column coordinate: the result's column. -/
theorem dotNorm_rhs1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide),
    dif_pos (show (1 : Fin S128x512.rank) ∈ dot_S2048x128_S128x512_S2048x512_1_0_0_1_n_n.rhsNonContracting by decide)]
  rfl

/-- The [2048, 128] × [128, 512] product into zeros at (r, b): the sum over q of left(r, q) · right(q, b). -/
theorem dotNorm_apply {φ₁ φ₂ : FTy} (A : FVec Ideal S2048x128 φ₁) (W : FVec Ideal S128x512 φ₂) (r : Fin 2048) (b : Fin 512) :
    matmul dot_S2048x128_S128x512_S2048x512_1_0_0_1_n_n none A W (constant (F := Ideal) S2048x512 .f32 0x00000000#32) (ix2 r b)
      = ∑ q : Fin 128, A (ix2 r q) * W (ix2 q b) :=
  Cert.Sage.matmul_zero_rows (n := 2048) (k := 128) (c := 512) dot_S2048x128_S128x512_S2048x512_1_0_0_1_n_n rfl rfl
    dotNorm_lhs0 dotNorm_lhs1 dotNorm_rhs0 dotNorm_rhs1 none A W r b

end Cert.KernelIdeal.Pay

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowLanes.lean ====
/-
  Matrices `[a, b]` handled along their rows, read at coordinates, at the ideal values.

  * a sum over the last axis, at row `i`, is the sum over `k` of the entries `(i, k)`; a maximum over it is the fold
    of `max` over those entries from the accumulator's value;
  * a matrix product into a zero accumulator whose dimension numbers contract the LAST axis of both operands —
    rows against rows, `A · Bᵀ` — is at `(p, q)` the sum over `j` of `A (p, j) · B (q, j)`. The four coordinate facts
    of the dimension numbers are hypotheses (each record proves them by unfolding).
-/
import Idealize.ShloMosaic.Lib.ValueIdx
import Idealize.ShloMosaic.PureOps.Ideal.Laws

noncomputable section

namespace Cert.LibRowLanes

open Idealize.ShloMosaic Idealize.ShloMosaic.ValueIdx
open scoped BigOperators

/-- The index `i` of `[a]` with `k` inserted on the last axis of `[a, b]` is `(i, k)`. -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A float sum over the last axis, read at row `i` on the extended reals: the sum of the entries `(i, k)`. -/
theorem sum_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  exact Finset.sum_congr rfl fun k _ => congrArg v (lift_row h i k)

/-- A float maximum over the last axis, read at row `i`: the fold of `max` over the entries `(i, k)` from the
    accumulator's value. -/
theorem max_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (i : Fin a) :
    multiReduction .maximumf [1] ⟨1, ![a]⟩ v acc h hφ hacc (ix1 i)
      = (Finset.univ : Finset (Fin b)).fold max (Ideal.ofBits .f32 acc) (fun k => v (ix2 i k)) := by
  refine (Ideal.multiReduction_maximumf_single v acc h hφ hacc (ix1 i)).trans ?_
  exact congrArg (Finset.univ.fold max (Ideal.ofBits .f32 acc)) (funext fun k => congrArg v (lift_row h i k))

/-- Rows against rows: the matrix product into zeros that contracts the last axis of both operands is, at entry
    `(p, q)`, the sum over the contraction position of `A (p, ·) · B (q, ·)`. -/
theorem matmul_zero_rows_rows {n k c : Nat} {φ₁ φ₂ : FTy}
    (D : DotDims ⟨2, ![n, k]⟩ ⟨2, ![c, k]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (i 1).val)
    (r1 : ∀ (i : (⟨2, ![n, c]⟩ : Shape).Idx) (q : D.contr.Idx), (D.rhsIdx i q 1).val = (q ⟨0, by omega⟩).val)
    (prec : Option ContractPrecision) (A : FVec Ideal ⟨2, ![n, k]⟩ φ₁) (B : FVec Ideal ⟨2, ![c, k]⟩ φ₂)
    (p : Fin n) (q : Fin c) :
    matmul D prec A B (constant ⟨2, ![n, c]⟩ .f32 0x00000000#32) (ix2 p q) = ∑ j : Fin k, A (ix2 p j) * B (ix2 q j) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 q j := funext fun ax => Fin.ext (by
    match ax with
    | ⟨0, _⟩ => exact r0 _ _
    | ⟨1, _⟩ => exact (r1 _ _).trans hk)
  rw [el, er]

end Cert.LibRowLanes

end
-- ==== Proof.PayloadStats.lean ====
/-
  The first kernel's payloads read at coordinates, at the ideal values: the masked scores of a tile, the running
  maximum, and the running sum of exponentials — one step of the streaming softmax on each row.
-/
import proofs.«178366_j68152541053411_1_alg».proof.Proof.Gen.KernelIdeal.Skeleton
import proofs.«178366_j68152541053411_1_alg».proof.Proof.Spec
import proofs.«178366_j68152541053411_1_alg».proof.Proof.PayloadDot
import proofs.«178366_j68152541053411_1_alg».proof.Proof.LibKeepdims
import proofs.«178366_j68152541053411_1_alg».proof.Proof.LibRowLanes
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen
open scoped BigOperators

/-- The mask's bit at lane b of tile t: the 32-bit sum t·1024 + b does not wrap for t < 98, so the signed comparison
    with 100000 is the comparison of the natural numbers. -/
theorem lane_bit_iff (t : ℕ) (ht : t < 98) (b : Fin 1024) :
    IntOp.cmpi .slt (IntOp.addi (Scalar.muli (BitVec.ofNat 32 t) 1024#32) (BitVec.ofNat 32 b.val)) 100000#32 = 1#1
      ↔ t * 1024 + b.val < 100000 := by
  have hb := b.isLt
  have hx : IntOp.addi (Scalar.muli (BitVec.ofNat 32 t) 1024#32) (BitVec.ofNat 32 b.val)
      = BitVec.ofNat 32 (t * 1024 + b.val) := by
    show BitVec.ofNat 32 t * BitVec.ofNat 32 1024 + BitVec.ofNat 32 b.val = _
    rw [BitVec.ofNat_mul_ofNat, BitVec.ofNat_add_ofNat]
  rw [hx, IntOp.cmpi_slt, BitVec.toInt_eq_toNat_of_lt (by rw [BitVec.toNat_ofNat]; omega),
    BitVec.toInt_eq_toNat_of_lt (by decide), BitVec.toNat_ofNat, BitVec.toNat_ofNat]
  omega

/-- The named constant the mask writes is −∞ at the ideal values. -/
theorem neg_big_eq : Named.named (F := Ideal) Cert.KernelIdeal.κ "neg_big" (φ := .f32) 0xFF333332#32 = (⊥ : EReal) :=
  IdealRules.named_const.ideal_named_scalar _ _ _ _ rfl

/-- The masked scores of tile t at (r, b): the product's entry where the position t·1024 + b is inside the row of
    100000, −∞ past it. -/
theorem k0_pay5_apply (i : grid0.Coords) (t : ℕ) (hi : (i 0).val = t) (ht : t < 98)
    (x0 : Vec Ideal S2048x128 .f32) (x1 : Vec Ideal S128x1024 .f32) (r : Fin 2048) (b : Fin 1024) :
    k0_pay5 i x0 x1 (ix2 r b)
      = if t * 1024 + b.val < 100000 then ∑ q : Fin 128, x0 (ix2 r q) * x1 (ix2 q b) else ⊥ := by
  subst hi
  have hbit := lane_bit_iff (i 0).val ht b
  have hio : iota Kind.tc S2048x1024 32 [1] iota_S2048x1024_d1_w32 (ix2 r b) = BitVec.ofNat 32 b.val :=
    iota_single_apply .tc S2048x1024 32 1 iota_S2048x1024_d1_w32 (ix2 r b)
  unfold k0_pay5
  simp only [shapeCast_self]
  refine (select_apply _ _ _ _).trans ?_
  have hc : cmpi CmpIPredicate.slt
        (addi (broadcast S2048x1024 (Scalar.muli (BitVec.ofNat 32 (i 0).val) 1024#32))
          (iota Kind.tc S2048x1024 32 [1] iota_S2048x1024_d1_w32))
        (broadcast S2048x1024 100000#32) (ix2 r b)
      = IntOp.cmpi .slt (IntOp.addi (Scalar.muli (BitVec.ofNat 32 (i 0).val) 1024#32) (BitVec.ofNat 32 b.val))
          100000#32 := by
    show IntOp.cmpi .slt (IntOp.addi _ (iota Kind.tc S2048x1024 32 [1] iota_S2048x1024_d1_w32 (ix2 r b))) _ = _
    rw [hio]
    rfl
  rw [hc, dotStats_apply, broadcast_apply, neg_big_eq]
  unfold Scalar.select
  by_cases h : (i 0).val * 1024 + b.val < 100000
  · rw [if_pos h]
    exact if_pos (hbit.mpr h)
  · rw [if_neg h]
    exact if_neg fun hh => h (hbit.mp hh)

/-- The running maximum after the tile, at row r: the maximum of the carried value and the fold of max from −∞ over
    the tile's masked scores of that row. -/
theorem k0_pay6_apply (i : grid0.Coords) (x0 : Vec Ideal S2048x128 .f32) (x1 : Vec Ideal S128x1024 .f32)
    (v18 : Vec Ideal S2048x1 .f32) (r : Fin 2048) :
    k0_pay6 i x0 x1 v18 (ix2 r (0 : Fin 1))
      = max (v18 (ix2 r 0))
          ((Finset.univ : Finset (Fin 1024)).fold max Cert.Softmax.negInf fun b => k0_pay5 i x0 x1 (ix2 r b)) := by
  unfold k0_pay6
  refine (maximumf_apply _ _ _).trans ?_
  refine congrArg (max (v18 (ix2 r 0))) ?_
  refine (Cert.LibKeepdims.shapeCast_a_a1_apply _ shapeCasts_S2048_S2048x1 r 0).trans ?_
  exact Cert.LibRowLanes.max_row_apply (k0_pay5 i x0 x1) 0xFF800000#32 reduces_S2048x1024_S2048 (.inl rfl) rfl r

/-- The running sum after the tile, at row r: the carried sum rescaled by exp(carried maximum − new maximum), plus
    the tile's exponentials less the new maximum. -/
theorem k0_pay7_apply (i : grid0.Coords) (x0 : Vec Ideal S2048x128 .f32) (x1 : Vec Ideal S128x1024 .f32)
    (v18 v22 v28 : Vec Ideal S2048x1 .f32) (r : Fin 2048) :
    k0_pay7 i x0 x1 v18 v22 v28 (ix2 r (0 : Fin 1))
      = Ideal.exp (v22 (ix2 r 0) - k0_pay6 i x0 x1 v18 (ix2 r 0)) * v28 (ix2 r 0)
        + ∑ b : Fin 1024, Ideal.exp (k0_pay5 i x0 x1 (ix2 r b) - k0_pay6 i x0 x1 v18 (ix2 r 0)) := by
  unfold k0_pay7
  simp only [shapeCast_self]
  refine (addf_apply _ _ _).trans ?_
  refine congrArg₂ (· + ·) rfl ?_
  refine (Cert.LibKeepdims.shapeCast_a_a1_apply _ shapeCasts_S2048_S2048x1 r 0).trans ?_
  refine (Cert.LibRowLanes.sum_row_apply _ 0x00000000#32 reduces_S2048x1024_S2048 (.inl rfl) rfl r).trans ?_
  refine Finset.sum_congr rfl fun b _ => ?_
  refine (Cert.LibKeepdims.exp_apply _ _).trans ?_
  refine congrArg Ideal.exp ?_
  refine (subf_apply _ _ _).trans ?_
  exact congrArg (k0_pay5 i x0 x1 (ix2 r b) - ·)
    (Cert.LibKeepdims.broadcastTo_a1_ab_apply _ broadcasts_S2048x1_S2048x1024 r b)

/-- The two together, the sum rescaled from the same carried maximum: one step of the streaming softmax on row r,
    over the tile's masked scores, from the carried pair. -/
theorem k0_step_eq (i : grid0.Coords) (x0 : Vec Ideal S2048x128 .f32) (x1 : Vec Ideal S128x1024 .f32)
    (v18 v28 : Vec Ideal S2048x1 .f32) (r : Fin 2048) :
    (k0_pay6 i x0 x1 v18 (ix2 r (0 : Fin 1)), k0_pay7 i x0 x1 v18 v18 v28 (ix2 r (0 : Fin 1)))
      = Cert.Softmax.step (fun b : Fin 1024 => k0_pay5 i x0 x1 (ix2 r b)) (v18 (ix2 r 0), v28 (ix2 r 0)) := by
  rw [k0_pay7_apply, k0_pay6_apply]
  rfl

/-- The first kernel's final write of the maximum column: a cast of a shape to itself. -/
theorem k0_pay1_eq (v21 : FVec Ideal S2048x1 .f32) : k0_pay1 v21 = v21 :=
  shapeCast_self _ _

/-- The first kernel's last write at row r: the maximum plus the logarithm of the sum. -/
theorem k0_pay2_apply (v42 v43 : Vec Ideal S2048x1 .f32) (r : Fin 2048) :
    k0_pay2 v42 v43 (ix2 r (0 : Fin 1)) = v42 (ix2 r 0) + Ideal.log (v43 (ix2 r 0)) :=
  rfl

/-- The maximum column's initial value at row r: the float −∞. -/
theorem k0_pay3_apply (r : Fin 2048) : k0_pay3 (F := Ideal) (ix2 r (0 : Fin 1)) = Cert.Softmax.negInf := by
  unfold k0_pay3
  simp only [shapeCast_self]
  rfl

/-- The sum column's initial value at row r: the float zero. -/
theorem k0_pay4_apply (r : Fin 2048) : k0_pay4 (F := Ideal) (ix2 r (0 : Fin 1)) = Cert.Softmax.zeroF := by
  unfold k0_pay4
  simp only [shapeCast_self]
  rfl

end Cert.KernelIdeal.Pay

end
-- ==== Proof.KI.StatsValue.lean ====
/-
  The first kernel region's value. For a row r with logits x(j) = Σ_q P(r,q)·W(q,j) over the unpadded weights W
  (which the padded weights extend), lane b of tile t of the masked logits is x(1024·t + b), or −∞ past the last real
  column; so one tile's update of the two scratch columns is, at row r, one step of the running (maximum, sum) pair,
  and by induction over the tiles the scratch columns hold, after tile n, the running pair after n + 1 tiles.
  The column the last tile stores is maximum + log(sum) after all 98 tiles.
-/
import proofs.«178366_j68152541053411_1_alg».proof.Proof.KI.StatsBlocks
import proofs.«178366_j68152541053411_1_alg».proof.Proof.KI.StatsPieces
import proofs.«178366_j68152541053411_1_alg».proof.Proof.PayloadStats
import proofs.«178366_j68152541053411_1_alg».proof.Proof.Spec

set_option maxRecDepth 16384

noncomputable section

namespace Cert.KernelIdeal.Walk

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.Softmax Cert.KernelIdeal.Pay

variable (V : (c : Dev nD) → (b : Ref sig .tc) → Buf (Elt Ideal) ((c : Thread nD τ).loc b))

/-- Tile t's grid coordinate is t. -/
theorem coord_val : ∀ t : Fin cfg0.N, ((grid0.coords t) 0).val = t.val :=
  (by decide +kernel : ∀ t : Fin grid0.N, ((grid0.coords t) 0).val = t.val)

section Row
variable (W : S128x100000.Idx → EReal) (c : Dev nD)

/-- Row r's logits against the unpadded weights. -/
abbrev xrow (r : Fin 2048) : Fin 100000 → EReal := fun j => logits (V c main_v9 : S2048x128.Idx → EReal) W r j

variable (hW : ∀ (q : Fin 128) (j : Fin 100000),
    (V c main_v10 : S128x100352.Idx → EReal) (ix2 q ⟨j.val, by have := j.isLt; omega⟩) = W (ix2 q j))
include hW

/-- Lane b of tile t of the masked logits of row r: the row's logit at column 1024·t + b, −∞ past the last column. -/
theorem lane_eq (t : Fin cfg0.N) (r : Fin 2048) (b : Fin 1024) :
    k0_pay5 (grid0.coords t) (iblk0 V c 0 t) (iblk0 V c 1 t) (ix2 r b) = tileLane 1024 100000 (xrow V W c r) t.val b := by
  have hN : cfg0.N = 98 := N_0
  refine (k0_pay5_apply (grid0.coords t) t.val (coord_val t) (by have := t.isLt; omega) (iblk0 V c 0 t) (iblk0 V c 1 t) r b).trans ?_
  unfold tileLane
  by_cases h : t.val * 1024 + b.val < 100000
  · rw [if_pos h, dif_pos h]
    show _ = logits _ W r ⟨_, h⟩
    unfold logits
    refine Finset.sum_congr rfl fun q _ => ?_
    rw [iblk0_0_apply V c t r q, iblk0_1_apply V c t q b]
    rw [hW q ⟨t.val * 1024 + b.val, h⟩]
  · rw [if_neg h, dif_neg h]

/-- One tile's update of the two scratch columns is, at row r, one step of the running pair. -/
theorem pair_step (t : Fin cfg0.N) (ms ls : Vec Ideal S2048x1 .f32) (r : Fin 2048) :
    (k0_pay1 (k0_pay6 (grid0.coords t) (iblk0 V c 0 t) (iblk0 V c 1 t) ms) (ix2 r (0 : Fin 1)),
     k0_pay7 (grid0.coords t) (iblk0 V c 0 t) (iblk0 V c 1 t) ms ms ls (ix2 r (0 : Fin 1)))
      = step (tileLane 1024 100000 (xrow V W c r) t.val) (ms (ix2 r 0), ls (ix2 r 0)) := by
  rw [k0_pay1_eq]
  refine (k0_step_eq (grid0.coords t) (iblk0 V c 0 t) (iblk0 V c 1 t) ms ls r).trans ?_
  exact congrArg (fun z => step z (ms (ix2 r 0), ls (ix2 r 0))) (funext fun b => lane_eq V W c hW t r b)

/-- The first tile, from the reset pair (−∞, 0). -/
theorem tile_first (t : Fin cfg0.N) (hc0 : cond0_0 (grid0.coords t)) (hc1 : ¬cond0_1 (grid0.coords t)) (r : Fin 2048) :
    (sout0_A_0 c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) (ix2 r (0 : Fin 1)),
     sout0_A_1 c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) (ix2 r (0 : Fin 1)))
      = step (tileLane 1024 100000 (xrow V W c r) t.val) (negInf, zeroF) := by
  have e0 := sout0_A_0_eq (F := Ideal) c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t)
  have e1 := sout0_A_1_eq (F := Ideal) c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t)
  refine (congrArg₂ Prod.mk (congrFun e0 (ix2 r 0)) (congrFun e1 (ix2 r 0))).trans ?_
  refine (pair_step V W c hW t (k0_pay3 (F := Ideal)) (k0_pay4 (F := Ideal)) r).trans ?_
  rw [k0_pay3_apply, k0_pay4_apply]

/-- A middle tile, from the pair the tile before left. -/
theorem tile_middle (t : Fin cfg0.N) (hc0 : ¬cond0_0 (grid0.coords t)) (hc1 : ¬cond0_1 (grid0.coords t)) (ms ls : Vec Ideal S2048x1 .f32) (r : Fin 2048) :
    (sout0_B_0 c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls (ix2 r (0 : Fin 1)),
     sout0_B_1 c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls (ix2 r (0 : Fin 1)))
      = step (tileLane 1024 100000 (xrow V W c r) t.val) (ms (ix2 r 0), ls (ix2 r 0)) := by
  have e0 := sout0_B_0_eq (F := Ideal) c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls
  have e1 := sout0_B_1_eq (F := Ideal) c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls
  refine (congrArg₂ Prod.mk (congrFun e0 (ix2 r 0)) (congrFun e1 (ix2 r 0))).trans ?_
  exact pair_step V W c hW t ms ls r

/-- The last tile's pair. -/
theorem tile_last (t : Fin cfg0.N) (hc0 : ¬cond0_0 (grid0.coords t)) (hc1 : cond0_1 (grid0.coords t)) (ms ls : Vec Ideal S2048x1 .f32) (r : Fin 2048) :
    (sout0_C_0 c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls (ix2 r (0 : Fin 1)),
     sout0_C_1 c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls (ix2 r (0 : Fin 1)))
      = step (tileLane 1024 100000 (xrow V W c r) t.val) (ms (ix2 r 0), ls (ix2 r 0)) := by
  have e0 := sout0_C_0_eq (F := Ideal) c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls
  have e1 := sout0_C_1_eq (F := Ideal) c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls
  refine (congrArg₂ Prod.mk (congrFun e0 (ix2 r 0)) (congrFun e1 (ix2 r 0))).trans ?_
  exact pair_step V W c hW t ms ls r

/-- The column the last tile stores, at row r: maximum + log(sum) of the updated pair. -/
theorem tile_last_out (t : Fin cfg0.N) (hc0 : ¬cond0_0 (grid0.coords t)) (hc1 : cond0_1 (grid0.coords t)) (ms ls : Vec Ideal S2048x1 .f32) (r : Fin 2048) :
    out0_C_2 c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls (ix2 r (0 : Fin 1))
      = (step (tileLane 1024 100000 (xrow V W c r) t.val) (ms (ix2 r 0), ls (ix2 r 0))).1 + Ideal.log (step (tileLane 1024 100000 (xrow V W c r) t.val) (ms (ix2 r 0), ls (ix2 r 0))).2 := by
  have e2 := out0_C_2_eq (F := Ideal) c (grid0.coords t) (ms0_0 t) (hs0_0 t) (ms0_1 t) (hs0_1 t) (ms0_2 t) (hs0_2 t) scM0_0 (Memref.isWhole_whole _) scM0_1 (Memref.isWhole_whole _) hc0 hc1 (iblk0 V c 0 t) (iblk0 V c 1 t) ms ls
  refine (congrFun e2 (ix2 r 0)).trans ?_
  refine (k0_pay2_apply _ _ r).trans ?_
  have hp := pair_step V W c hW t ms ls r
  exact congrArg₂ (fun a b => a + Ideal.log b) (congrArg Prod.fst hp) (congrArg Prod.snd hp)

set_option maxHeartbeats 1000000 in
/-- After tile n the scratch columns hold, at row r, the running pair after n + 1 tiles. -/
theorem scratch_run (r : Fin 2048) : ∀ (n : ℕ) (hn : n < cfg0.N),
    ((outsAt0 V c n hn).2.1 (ix2 r (0 : Fin 1)), (outsAt0 V c n hn).2.2 (ix2 r (0 : Fin 1)))
      = run (tileLane 1024 100000 (xrow V W c r)) (n + 1)
  | 0, hn => by
    rw [outsAt0_A V c ⟨0, hn⟩ rfl (by show ¬(0 : ℕ) = 97; omega)]
    dsimp only
    refine (tile_first V W c hW ⟨0, hn⟩ _ _ r).trans ?_
    rfl
  | n + 1, hn => by
    have ih := scratch_run r n (Nat.lt_of_succ_lt hn)
    by_cases h1 : n + 1 = 97
    · rw [outsAt0_C V c ⟨n + 1, hn⟩ (Nat.succ_ne_zero n) h1]
      dsimp only
      refine (tile_last V W c hW ⟨n + 1, hn⟩ _ _ _ _ r).trans ?_
      show step _ ((outsAt0 V c n _).2.1 (ix2 r 0), (outsAt0 V c n _).2.2 (ix2 r 0)) = step _ (run _ (n + 1))
      rw [ih]
    · rw [outsAt0_B V c ⟨n + 1, hn⟩ (Nat.succ_ne_zero n) h1]
      dsimp only
      refine (tile_middle V W c hW ⟨n + 1, hn⟩ _ _ _ _ r).trans ?_
      show step _ ((outsAt0 V c n _).2.1 (ix2 r 0), (outsAt0 V c n _).2.2 (ix2 r 0)) = step _ (run _ (n + 1))
      rw [ih]

end Row

end Cert.KernelIdeal.Walk

end
-- ==== Proof.KI.StatsLse.lean ====
/-
  The column the first kernel region's last tile stores: at row r, maximum + log(sum) of the running pair after that
  tile — the pair the tile before left, updated once more.
-/
import proofs.«178366_j68152541053411_1_alg».proof.Proof.KI.StatsValue

set_option maxRecDepth 16384

noncomputable section

namespace Cert.KernelIdeal.Walk

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.Softmax Cert.KernelIdeal.Pay

variable (V : (c : Dev nD) → (b : Ref sig .tc) → Buf (Elt Ideal) ((c : Thread nD τ).loc b))
variable (W : S128x100000.Idx → EReal) (c : Dev nD)
variable (hW : ∀ (q : Fin 128) (j : Fin 100000),
    (V c main_v10 : S128x100352.Idx → EReal) (ix2 q ⟨j.val, by have := j.isLt; omega⟩) = W (ix2 q j))
include hW

set_option maxHeartbeats 1000000 in
/-- At the last tile t the stored column is, at row r, m + log l of the running pair after t + 1 tiles. -/
theorem last_out (t : Fin cfg0.N) (h0 : ¬t.val = 0) (h1 : t.val = 97) (r : Fin 2048) :
    (outsAt0 V c t.val t.isLt).1 (ix2 r (0 : Fin 1))
      = (run (tileLane 1024 100000 (xrow V W c r)) (t.val + 1)).1 + Ideal.log (run (tileLane 1024 100000 (xrow V W c r)) (t.val + 1)).2 := by
  have ih := scratch_run V W c hW r (t.val - 1) (Nat.lt_of_le_of_lt (Nat.sub_le _ _) t.isLt)
  rw [outsAt0_C V c t h0 h1]
  dsimp only
  refine (tile_last_out V W c hW t _ _ _ _ r).trans ?_
  rw [ih]
  have e : t.val - 1 + 1 = t.val := by omega
  rw [e]
  rfl

/-- The stored column after all 98 tiles. -/
theorem lse_eq (r : Fin 2048) :
    (outsAt0 V c tLast.val tLast.isLt).1 (ix2 r (0 : Fin 1))
      = (run (tileLane 1024 100000 (xrow V W c r)) (tLast.val + 1)).1 + Ideal.log (run (tileLane 1024 100000 (xrow V W c r)) (tLast.val + 1)).2 :=
  last_out V W c hW tLast (by decide) rfl r

end Cert.KernelIdeal.Walk

end
-- ==== Proof.PayloadNorm.lean ====
/-
  The second kernel's payload read at coordinates: at (r, b) the exponential of the product's entry less the column
  operand's entry of row r.
-/
import proofs.«178366_j68152541053411_1_alg».proof.Proof.Gen.KernelIdeal.Skeleton
import proofs.«178366_j68152541053411_1_alg».proof.Proof.Spec
import proofs.«178366_j68152541053411_1_alg».proof.Proof.PayloadDot
import proofs.«178366_j68152541053411_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen
open scoped BigOperators

/-- The normalising kernel's stored value at (r, b): exp(Σ_q x0(r, q) · x1(q, b) − x2(r, 0)). The casts of a shape to
    itself and the narrowing format changes are identities at the ideal values. -/
theorem k1_pay1_apply (x0 : Vec Ideal S2048x128 .f32) (x1 : Vec Ideal S128x512 .f32) (x2 : Vec Ideal S2048x1 .f32)
    (r : Fin 2048) (b : Fin 512) :
    k1_pay1 x0 x1 x2 (ix2 r b)
      = Ideal.exp ((∑ q : Fin 128, x0 (ix2 r q) * x1 (ix2 q b)) - x2 (ix2 r (0 : Fin 1))) := by
  unfold k1_pay1
  simp only [shapeCast_self]
  refine (Cert.LibKeepdims.exp_apply _ _).trans ?_
  refine congrArg Ideal.exp ?_
  refine (subf_apply _ _ _).trans ?_
  refine congrArg₂ (· - ·) ?_ ?_
  · exact dotNorm_apply _ _ r b
  · exact Cert.LibKeepdims.broadcastTo_a1_ab_apply x2 broadcasts_S2048x1_S2048x512 r b

end Cert.KernelIdeal.Pay

end
-- ==== Proof.KI.NormValue.lean ====
/-
  The second kernel region's value: from its tiles to its whole output array.

  The region walks 196 tiles. At tile t it reads the whole projection P [2048, 128], columns [512 t, 512 t + 512) of
  the padded table Wp [128, 100352] and the whole column lse [2048, 1], and writes back columns
  [512 t, 512 t + 512) of the output [2048, 100352]: at (r, 512 t + b) the value exp(Σ_q P(r, q) · Wp(q, 512 t + b) − lse(r, 0)).
  The 196 tiles of 512 columns fill the 100352 columns, so after the region the output array is that function of
  the three arrays at every index.
-/
import proofs.«178366_j68152541053411_1_alg».proof.Proof.KI.Norm
import proofs.«178366_j68152541053411_1_alg».proof.Proof.PayloadNorm
import Idealize.ShloMosaic.Lib.Pipeline.Value
import Idealize.ShloMosaic.Lib.ValueIdx

set_option maxRecDepth 16384

noncomputable section

namespace Cert.KernelIdeal.Walk

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The zero offset of a whole block, as the constant function. -/
theorem offset_zero : (![0, 0] : Fin 2 → Nat) = fun _ => 0 := funext fun a => by fin_cases a <;> rfl

/-- The normalised exponentials: at (r, j), exp(Σ_q P(r, q) · Wp(q, j) − lse(r, 0)). -/
def normOut (P : S2048x128.Idx → EReal) (Wp : S128x100352.Idx → EReal) (lse : S2048x1.Idx → EReal) :
    S2048x100352.Idx → EReal := fun i =>
  Ideal.exp ((∑ q : Fin 128, P (ix2 (i 0) q) * Wp (ix2 q (i 1))) - lse (ix2 (i 0) (0 : Fin 1)))

/-- At explicit coordinates. -/
theorem normOut_ix2 (P : S2048x128.Idx → EReal) (Wp : S128x100352.Idx → EReal) (lse : S2048x1.Idx → EReal)
    (r : Fin 2048) (j : Fin 100352) :
    normOut P Wp lse (ix2 r j) = Ideal.exp ((∑ q : Fin 128, P (ix2 r q) * Wp (ix2 q j)) - lse (ix2 r (0 : Fin 1))) := rfl

/-- The tiles' block indices, decided over the grid: the projection and the column sit at block (0, 0) at every
    tile; the table's and the output's blocks at tile t are (0, t). -/
theorem tile_index : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

/-- One tile's stored block, from blocks that are the three arrays read at the tile's rectangles: at (r, b) of
    tile number n it is the normalised exponential at (r, 512 n + b). -/
theorem tile_value (P : S2048x128.Idx → EReal) (Wp : S128x100352.Idx → EReal) (lse : S2048x1.Idx → EReal)
    (x0 : Vec Ideal S2048x128 .f32) (x1 : Vec Ideal S128x512 .f32) (x2 : Vec Ideal S2048x1 .f32)
    (n : ℕ) (hn : n < 196)
    (h0 : ∀ (r : Fin 2048) (q : Fin 128), x0 (ix2 r q) = P (ix2 r q))
    (h1 : ∀ (q : Fin 128) (b : Fin 512), x1 (ix2 q b) = Wp (ix2 q ⟨n * 512 + b.val, by have := b.isLt; omega⟩))
    (h2 : ∀ r : Fin 2048, x2 (ix2 r (0 : Fin 1)) = lse (ix2 r (0 : Fin 1)))
    (r : Fin 2048) (b : Fin 512) :
    k1_pay1 x0 x1 x2 (ix2 r b) = normOut P Wp lse (ix2 r ⟨n * 512 + b.val, by have := b.isLt; omega⟩) := by
  rw [Cert.KernelIdeal.Pay.k1_pay1_apply, normOut_ix2, h2]
  refine congrArg (fun s => Ideal.exp (s - lse (ix2 r (0 : Fin 1)))) ?_
  exact Finset.sum_congr rfl fun q _ => by rw [h0, h1]

section Region
variable (V : (c : Dev nD) → (b : Ref sig .tc) → Buf (Elt Ideal) ((c : Thread nD τ).loc b))

/-- What tile t writes back is block t of the normalised exponentials of the three arrays as the region finds them. -/
theorem flushed_norm (c : Dev nD) (t : Fin cfg1.N) :
    (dat1 (F := Ideal) V c).flushed 3 t
      = ((cfg1.win 3).blk t).view.read (Elt Ideal) (normOut (V c main_v9) (V c main_v10) (V c main_v11)) := by
  show (cfg1.win 3).cut (grid1.coords t) ((dat1 V c).after 3 t) = _
  rw [after1_3]
  unfold out1_3
  rw [View.canon_unit_zero offset_zero]
  simp only [View.ld_unit_zero (S := S2048x128) offset_zero, View.ld_unit_zero (S := S128x512) offset_zero,
    View.ld_unit_zero (S := S2048x1) offset_zero]
  obtain ⟨e00, e01, e10, e11, e20, e21, e30, e31⟩ := tile_index t
  have ht : t.val < 196 := t.isLt
  funext j
  obtain ⟨r, b, rfl⟩ : ∃ (r : Fin 2048) (b : Fin 512), j = ix2 r b := ⟨j 0, j 1, eq_ix2 j⟩
  refine (tile_value (V c main_v9) (V c main_v10) (V c main_v11) (iblk1 V c 0 t) (iblk1 V c 1 t) (iblk1 V c 2 t)
    t.val ht ?_ ?_ ?_ r b).trans ?_
  · intro r q
    show V c main_v9 (((cfg1.win 0).blk t).view.emb (ix2 r q)) = _
    refine congrArg (V c main_v9) (funext fun a => Fin.ext ?_)
    match a with
    | ⟨0, _⟩ => show win1_0.index t (0 : Fin 2) * 2048 + 1 * r.val = r.val; omega
    | ⟨1, _⟩ => show win1_0.index t (1 : Fin 2) * 128 + 1 * q.val = q.val; omega
  · intro q b
    show V c main_v10 (((cfg1.win 1).blk t).view.emb (ix2 q b)) = _
    refine congrArg (V c main_v10) (funext fun a => Fin.ext ?_)
    match a with
    | ⟨0, _⟩ => show win1_1.index t (0 : Fin 2) * 128 + 1 * q.val = q.val; omega
    | ⟨1, _⟩ => show win1_1.index t (1 : Fin 2) * 512 + 1 * b.val = t.val * 512 + b.val; omega
  · intro r
    show V c main_v11 (((cfg1.win 2).blk t).view.emb (ix2 r (0 : Fin 1))) = _
    refine congrArg (V c main_v11) (funext fun a => Fin.ext ?_)
    match a with
    | ⟨0, _⟩ => show win1_2.index t (0 : Fin 2) * 2048 + 1 * r.val = r.val; omega
    | ⟨1, _⟩ => show win1_2.index t (1 : Fin 2) * 1 + 1 * 0 = 0; omega
  · show _ = normOut (V c main_v9) (V c main_v10) (V c main_v11) (((cfg1.win 3).blk t).view.emb (ix2 r b))
    refine congrArg (normOut (V c main_v9) (V c main_v10) (V c main_v11)) (funext fun a => Fin.ext ?_)
    match a with
    | ⟨0, _⟩ => show r.val = win1_3.index t (0 : Fin 2) * 2048 + 1 * r.val; omega
    | ⟨1, _⟩ => show t.val * 512 + b.val = win1_3.index t (1 : Fin 2) * 512 + 1 * b.val; omega

/-- An index of the output array is in tile t's block iff each coordinate is in the block's range on its axis. -/
theorem mem_tile (t : Fin cfg1.N) (i : S2048x100352.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v12).slice (win1_3.rect t)).set ↔ _
  rw [View.set_slice_whole, Rect.mem_set_unit]
  exact Iff.rfl

/-- The tiles fill the array: column j lies in tile j / 512, and 196 tiles of 512 columns are 100352 columns. -/
theorem tiles_cover (i : S2048x100352.Idx) :
    ∃ t : Fin cfg1.N, (cfg1.win 3).flush t = true ∧ i ∈ ((cfg1.win 3).blk t).view.set := by
  have hi0 : (i 0).val < 2048 := (i 0).isLt
  have hi1 : (i 1).val < 100352 := (i 1).isLt
  have hq : (i 1).val / 512 < 196 := by omega
  obtain ⟨t, ht⟩ : ∃ t : Fin cfg1.N, t.val = (i 1).val / 512 := ⟨⟨(i 1).val / 512, hq⟩, rfl⟩
  obtain ⟨_, _, _, _, _, _, e30, e31⟩ := tile_index t
  refine ⟨t, flush1_3 t, ?_⟩
  rw [mem_tile]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 512 ≤ (i 1).val ∧ (i 1).val < win1_3.index t (1 : Fin 2) * 512 + 512
    omega

/-- The output array after the region: the normalised exponentials of the three arrays as the region finds them,
    at every index. -/
theorem final1 (c : Dev nD) :
    (dat1 (F := Ideal) V c).arrAt 3 cfg1.N = normOut (V c main_v9) (V c main_v10) (V c main_v11) :=
  (dat1 (F := Ideal) V c).arrAt_eq_of_cover 3 _ (fun t _ => flushed_norm V c t) tiles_cover

end Region

end Cert.KernelIdeal.Walk

end
-- ==== Proof.RefProj.lean ====
/-
  The reference's projection stage: the mean of the four gathered context rows, as one function of the
  index array and the input embedding table. It is the composed term of the reference's first fourteen
  operations: negative indices wrapped by the table's height, the table's rows gathered, the four context
  rows summed from the float zero, the sum divided by the float 4.
-/
import proofs.«178366_j68152541053411_1_alg».proof.Proof.Gen.ReferenceIdeal.Read

noncomputable section

namespace Cert.ReferenceIdeal.RefValue

open Cert.ReferenceIdeal Cert.ReferenceIdeal.Gen Idealize.ShloMosaic Idealize.ShloMosaic.StableHlo

variable {F : FTy → Type} [FloatOps F]

/-- The wrapped index array in the gather's layout: an index below zero is moved up by the table's height,
    and the [2048, 4] array is recast as [2048, 4, 1]. -/
def wrappedIdx (a0 : IVec S2048x4 32) : IVec S2048x4x1 32 :=
  broadcastInDim S2048x4x1 ![0, 1] bcast_S2048x4_S2048x4x1_0_1
    (select (cmpi .slt a0 (broadcastInDim S2048x4 ![] bcast_S_S2048x4 (constantI S_ 32 0#32)))
      (addi a0 (broadcastInDim S2048x4 ![] bcast_S_S2048x4 (constantI S_ 32 100000#32))) a0)

/-- The projection: the four gathered rows of the table summed from the float zero and divided by the float 4. -/
def projOf (a0 : IVec S2048x4 32) (a1 : FVec F S100000x128 .f32) : FVec F S2048x128 .f32 :=
  Host.divf
    (Host.reduceAdd (Host.gather gather_S100000x128_S2048x4x1_S2048x4x128_2_0_n_n_0_2_1128 a1 (wrappedIdx a0))
      (constant S_ .f32 0x00000000#32) reducesTo_S2048x4x128_S2048x128_d1 h_S_)
    (broadcastInDim S2048x128 ![] bcast_S_S2048x128 (constant S_ .f32 0x40800000#32))

/-- The projection is the generated stage of the tenth result of the reference's operation list. -/
theorem projOf_eq (a0 : IVec S2048x4 32) (a1 : FVec F S100000x128 .f32) :
    projOf (F := F) a0 a1 = Read.val_main_v9 (F := F) a0 a1 := rfl

end Cert.ReferenceIdeal.RefValue

end
-- ==== Proof.KI.HostPrefix.lean ====
/-
  The kernel program's host stretches, read as terms of the launch contents.

  Before the first region the program computes, on the host, the projection (the mean of the four gathered
  context rows of the input table: the same operation list as the reference's first stage) and the output
  table padded on the right with the float conversion of the integer zero; after the last region it cuts the
  padded result back to its first 100000 columns.
-/
import proofs.«178366_j68152541053411_1_alg».proof.Proof.Gen.KernelIdeal.Regions
import proofs.«178366_j68152541053411_1_alg».proof.Proof.RefProj
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- When the first region is entered, the projection buffer holds the projection of the launch contents of
    the index array and the input table. -/
theorem proj_entry :
    (V2 m c (Proc.devRef .tc main_v9) : S2048x128.Idx → EReal)
      = Cert.ReferenceIdeal.RefValue.projOf (F := Ideal) (m ((c.tc : Thread nD τ).loc main_arg0))
          (m ((c.tc : Thread nD τ).loc main_arg1)) := by
  rw [V2_of m c main_v9 (by decide)]
  dsimp only [V1, V0]
  after_results
  rfl

/-- When the first region is entered, the padded-table buffer holds the launch contents of the output table
    padded by 352 columns on the right with the float conversion of the integer zero. -/
theorem wpad_entry :
    (V2 m c (Proc.devRef .tc main_v10) : S128x100352.Idx → EReal)
      = pad S128x100352 ![0, 0] ![0, 352] ![0, 0] (m ((c.tc : Thread nD τ).loc main_arg2))
          (sitofp (F := Ideal) .f32 (constantI S_ 32 0#32)) pads_S128x100000_S128x100352_000_03520 h_S_ := by
  dsimp only [V2, V1, V0]
  after_results
  rfl

/-- The padding value is the real zero. -/
theorem pad_value_zero : sitofp (F := Ideal) .f32 (constantI S_ 32 0#32) ValueIdx.ix0 = 0 := by
  show (((0#32 : BitVec 32).toInt : ℝ) : EReal) = 0
  simp

/-- After the last host stretch the result buffer holds the first 100000 columns of what the last region
    left in the padded result buffer, for any contents of the buffers before the stretch. -/
theorem slice_exit (X : Valuation τ sig (Elt Ideal)) :
    (StableHlo.after hostOps2 X (Proc.devRef .tc main_v13) : S2048x100000.Idx → EReal)
      = extractStridedSlice S2048x100000 ![0, 0] (X (Proc.devRef .tc main_v12)) slices_S2048x100352_S2048x100000_0_0 := by
  after_results

end Cert.KernelIdeal.Host

end
-- ==== Proof.HostLayout.lean ====
/-
  The host's two layout steps around the kernels, read at coordinates: the columns of a [128, 100000] array padded
  on the right to 100352, and the first 100000 columns of a [2048, 100352] array cut back out.
-/
import proofs.«178366_j68152541053411_1_alg».proof.Proof.Gen.KernelIdeal.Skeleton
import proofs.«178366_j68152541053411_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen
open scoped BigOperators

variable {α : Type}

/-- The right-padded array at (q, j): the source's entry where j is inside the source's 100000 columns, the padding
    value past them. -/
theorem pad_cols_apply (W : S128x100000.Idx → α) (v : S_.Idx → α) (q : Fin 128) (j : Fin 100352) :
    pad S128x100352 ![0, 0] ![0, 352] ![0, 0] W v pads_S128x100000_S128x100352_000_03520 h_S_ (ix2 q j)
      = if h : j.val < 100000 then W (ix2 q ⟨j.val, h⟩) else v ValueIdx.ix0 := by
  unfold pad
  by_cases h : j.val < 100000
  · have hin : ∀ a : Fin S128x100000.rank,
        (![0, 0] : Fin 2 → ℕ) a ≤ (ix2 q j (a.cast pads_S128x100000_S128x100352_000_03520.1)).val
          ∧ ((ix2 q j (a.cast pads_S128x100000_S128x100352_000_03520.1)).val - (![0, 0] : Fin 2 → ℕ) a)
              % ((![0, 0] : Fin 2 → ℕ) a + 1) = 0
          ∧ ((ix2 q j (a.cast pads_S128x100000_S128x100352_000_03520.1)).val - (![0, 0] : Fin 2 → ℕ) a)
              / ((![0, 0] : Fin 2 → ℕ) a + 1) < S128x100000.size a := fun a => by
      match a with
      | ⟨0, _⟩ =>
        refine ⟨Nat.zero_le _, Nat.mod_one _, ?_⟩
        show (q.val - 0) / (0 + 1) < 128
        have := q.isLt
        omega
      | ⟨1, _⟩ =>
        refine ⟨Nat.zero_le _, Nat.mod_one _, ?_⟩
        show (j.val - 0) / (0 + 1) < 100000
        omega
    rw [dif_pos hin, dif_pos h]
    refine congrArg W (funext fun a => Fin.ext ?_)
    match a with
    | ⟨0, _⟩ =>
      show (q.val - 0) / (0 + 1) = q.val
      omega
    | ⟨1, _⟩ =>
      show (j.val - 0) / (0 + 1) = j.val
      omega
  · rw [dif_neg h, dif_neg]
    · exact congrArg v (funext fun a => a.elim0)
    · intro hin
      have h1 := (hin ⟨1, by decide⟩).2.2
      change (j.val - 0) / (0 + 1) < 100000 at h1
      omega

/-- The cut-out array at (r, j): the source's entry at the same coordinates. -/
theorem slice_cols_apply (X : S2048x100352.Idx → α) (r : Fin 2048) (j : Fin 100000) :
    extractStridedSlice S2048x100000 ![0, 0] X slices_S2048x100352_S2048x100000_0_0 (ix2 r j)
      = X (ix2 r ⟨j.val, by omega⟩) :=
  slice2_axis1_apply 0 X slices_S2048x100352_S2048x100000_0_0 r j ⟨j.val, by omega⟩ (Nat.zero_add _).symm

end Cert.KernelIdeal.Pay

end
-- ==== Proof.LibOnlineSoftmax.lean ====
/-
  The streaming ("online") softmax of a row of real logits equals the plain softmax, on the extended reals.

  A row of n reals is walked in T tiles of B lanes, positions past n reading −∞. The running pair (m, l) starts at
  (−∞, 0) and is updated by m' = max m (tile max), l' = exp(m − m')·l + Σ_b exp(tile b − m'). After any number k ≥ 1 of
  tiles, m is a real and l = (Σ_{p < kB} e(p))·exp(−m), where e(p) = exp(x p) for p < n and 0 past the end: no ordering
  fact about m is needed, only that it is a real. After all T tiles the sum covers the whole row, so m + log l is the
  logarithm of Σ_k exp(x k) and the result is exp(x j)/Σ_k exp(x k); the plain form, with its own real shift M, is the
  same quotient.
-/
import proofs.«178366_j68152541053411_1_alg».proof.Proof.Spec

noncomputable section

namespace Cert.Softmax

open Idealize.ShloMosaic
open scoped BigOperators

/-- The float −∞ is the bottom of the extended reals. -/
theorem negInf_eq : negInf = ⊥ := by
  simp [negInf, Ideal.ofBits, Ideal.ieee]

/-- The float zero is the zero of the extended reals. -/
theorem zeroF_eq : zeroF = 0 := by
  simp [zeroF, Ideal.ofBits, Ideal.ieee]

/-- The coercion of a finite sum of reals is the sum of the coercions. -/
theorem coe_sum_real {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A fold of max from −∞ over lanes none of which is +∞ is below +∞. -/
theorem fold_lt_top {ι : Type*} (s : Finset ι) (z : ι → EReal) (hz : ∀ b, z b ≠ ⊤) :
    s.fold max negInf z < ⊤ := by
  rw [Finset.fold_max_lt, negInf_eq]
  exact ⟨bot_lt_top, fun b _ => lt_top_iff_ne_top.mpr (hz b)⟩

/-- A fold of max from −∞ over lanes one of which is not −∞ is above −∞. -/
theorem bot_lt_fold {ι : Type*} (s : Finset ι) (z : ι → EReal) (b : ι) (hb : b ∈ s) (hzb : z b ≠ ⊥) :
    ⊥ < s.fold max negInf z := by
  rw [Finset.lt_fold_max]
  exact Or.inr ⟨b, hb, bot_lt_iff_ne_bot.mpr hzb⟩

/-- The exponentials of a row of reals, continued by zero past the row's end. -/
def expExt {n : ℕ} (f : Fin n → ℝ) (p : ℕ) : ℝ :=
  if h : p < n then Real.exp (f ⟨p, h⟩) else 0

/-- A lane of a tile of a real row is never +∞. -/
theorem tileLane_ne_top (B n : ℕ) (f : Fin n → ℝ) (t : ℕ) (b : Fin B) :
    tileLane B n (fun j => (f j : EReal)) t b ≠ ⊤ := by
  unfold tileLane
  split_ifs
  · exact EReal.coe_ne_top _
  · exact bot_ne_top

/-- The exponential of a lane less a real shift c: the continued exponential at the lane's position, times exp(−c). -/
theorem exp_tileLane_sub (B n : ℕ) (f : Fin n → ℝ) (t : ℕ) (b : Fin B) (c : ℝ) :
    Ideal.exp (tileLane B n (fun j => (f j : EReal)) t b - (c : EReal))
      = ((expExt f (t * B + b.val) * Real.exp (-c) : ℝ) : EReal) := by
  unfold tileLane expExt
  split_ifs with h
  · rw [← EReal.coe_sub, Ideal.exp_coe, sub_eq_add_neg, Real.exp_add]
  · rw [EReal.bot_sub, Ideal.exp_bot, zero_mul, EReal.coe_zero]

/-- The sum over a tile's lanes of the exponentials less a real shift c. -/
theorem sum_exp_tile (B n : ℕ) (f : Fin n → ℝ) (t : ℕ) (c : ℝ) :
    ∑ b : Fin B, Ideal.exp (tileLane B n (fun j => (f j : EReal)) t b - (c : EReal))
      = (((∑ b ∈ Finset.range B, expExt f (t * B + b)) * Real.exp (-c) : ℝ) : EReal) := by
  simp_rw [exp_tileLane_sub]
  rw [← coe_sum_real, Fin.sum_univ_eq_sum_range (fun b => expExt f (t * B + b) * Real.exp (-c)) B,
    Finset.sum_mul]

/-- A tile's update from a real pair (m, l), no lane being +∞: the new maximum m' is a real, and the new sum is
    exp(m − m')·l plus the lanes' exponentials less m'. -/
theorem step_of_real {B : ℕ} (z : Fin B → EReal) (hz : ∀ b, z b ≠ ⊤) (m l : ℝ) :
    ∃ m' : ℝ, step z ((m : EReal), (l : EReal))
      = ((m' : EReal),
          ((Real.exp (m - m') * l : ℝ) : EReal) + ∑ b : Fin B, Ideal.exp (z b - (m' : EReal))) := by
  have hlt : max (m : EReal) ((Finset.univ : Finset (Fin B)).fold max negInf z) < ⊤ :=
    max_lt (EReal.coe_lt_top m) (fold_lt_top _ z hz)
  have hgt : ⊥ < max (m : EReal) ((Finset.univ : Finset (Fin B)).fold max negInf z) :=
    lt_of_lt_of_le (EReal.bot_lt_coe m) (le_max_left _ _)
  obtain ⟨m', hm'⟩ : ∃ m' : ℝ, (m' : EReal) = max (m : EReal) ((Finset.univ : Finset (Fin B)).fold max negInf z) :=
    ⟨_, EReal.coe_toReal hlt.ne hgt.ne'⟩
  refine ⟨m', ?_⟩
  simp only [step]
  rw [← hm', ← EReal.coe_sub, Ideal.exp_coe, EReal.coe_mul]

/-- The first tile's update, from (−∞, 0), no lane being +∞ and some lane not −∞: the new maximum m' is a real, and
    the new sum is the lanes' exponentials less m' (exp(−∞ − m') = 0 kills the carried term). -/
theorem step_of_start {B : ℕ} (z : Fin B → EReal) (hz : ∀ b, z b ≠ ⊤) (b₀ : Fin B) (h0 : z b₀ ≠ ⊥) :
    ∃ m' : ℝ, step z (negInf, zeroF)
      = ((m' : EReal), ∑ b : Fin B, Ideal.exp (z b - (m' : EReal))) := by
  have hlt := fold_lt_top Finset.univ z hz
  have hgt := bot_lt_fold Finset.univ z b₀ (Finset.mem_univ _) h0
  obtain ⟨m', hm'⟩ : ∃ m' : ℝ, (m' : EReal) = (Finset.univ : Finset (Fin B)).fold max negInf z :=
    ⟨_, EReal.coe_toReal hlt.ne hgt.ne'⟩
  refine ⟨m', ?_⟩
  simp only [step]
  rw [← hm', negInf_eq, max_bot_left, EReal.bot_sub, Ideal.exp_bot, zero_mul, zero_add]

/-- After k + 1 tiles of a nonempty real row, the running maximum is a real m and the running sum is the sum of the
    continued exponentials over the positions walked so far, times exp(−m). -/
theorem run_succ_eq (B n : ℕ) (hB : 0 < B) (hn : 0 < n) (f : Fin n → ℝ) (k : ℕ) :
    ∃ m : ℝ, run (tileLane B n (fun j => (f j : EReal))) (k + 1)
      = ((m : EReal),
          (((∑ p ∈ Finset.range ((k + 1) * B), expExt f p) * Real.exp (-m) : ℝ) : EReal)) := by
  induction k with
  | zero =>
    have h0 : tileLane B n (fun j => (f j : EReal)) 0 ⟨0, hB⟩ ≠ ⊥ := by
      unfold tileLane
      rw [dif_pos (by simpa using hn)]
      exact EReal.coe_ne_bot _
    obtain ⟨m', hm'⟩ := step_of_start (tileLane B n (fun j => (f j : EReal)) 0)
      (tileLane_ne_top B n f 0) ⟨0, hB⟩ h0
    refine ⟨m', ?_⟩
    show step _ (negInf, zeroF) = _
    rw [hm', sum_exp_tile]
    simp
  | succ k ih =>
    obtain ⟨m, hm⟩ := ih
    obtain ⟨m', hm'⟩ := step_of_real (tileLane B n (fun j => (f j : EReal)) (k + 1))
      (tileLane_ne_top B n f (k + 1)) m ((∑ p ∈ Finset.range ((k + 1) * B), expExt f p) * Real.exp (-m))
    refine ⟨m', ?_⟩
    show step _ (run _ (k + 1)) = _
    rw [hm, hm', sum_exp_tile, ← EReal.coe_add]
    have hsplit : (k + 1 + 1) * B = (k + 1) * B + B := by ring
    have he : Real.exp (m - m') * Real.exp (-m) = Real.exp (-m') := by
      rw [← Real.exp_add]; congr 1; ring
    rw [hsplit, Finset.sum_range_add]
    congr 2
    linear_combination (∑ p ∈ Finset.range ((k + 1) * B), expExt f p) * he

/-- Over a range reaching the row's end, the continued exponentials sum to the row's exponentials. -/
theorem sum_expExt_range {n : ℕ} (f : Fin n → ℝ) (N : ℕ) (hN : n ≤ N) :
    ∑ p ∈ Finset.range N, expExt f p = ∑ k : Fin n, Real.exp (f k) := by
  obtain ⟨d, rfl⟩ := Nat.exists_eq_add_of_le hN
  rw [Finset.sum_range_add, Finset.sum_eq_zero (s := Finset.range d), add_zero,
    ← Fin.sum_univ_eq_sum_range]
  · refine Finset.sum_congr rfl fun k _ => ?_
    simp [expExt]
  · intro p _
    simp [expExt]

/-- The tiled form of a nonempty real row at j, the tiles reaching the row's end: exp(x j) / Σ_k exp(x k). -/
theorem tiled_eq_quot (T B n : ℕ) (hB : 0 < B) (hT : 0 < T) (hn : 0 < n) (hhi : n ≤ T * B)
    (f : Fin n → ℝ) (j : Fin n) :
    tiledSoftmaxRow T B (fun j => (f j : EReal)) j
      = ((Real.exp (f j) / ∑ k : Fin n, Real.exp (f k) : ℝ) : EReal) := by
  obtain ⟨k, rfl⟩ : ∃ k, T = k + 1 := ⟨T - 1, by omega⟩
  obtain ⟨m, hm⟩ := run_succ_eq B n hB hn f k
  have hpos : 0 < ∑ k : Fin n, Real.exp (f k) :=
    Finset.sum_pos (fun _ _ => Real.exp_pos _) ⟨⟨0, hn⟩, Finset.mem_univ _⟩
  have hl : 0 < (∑ k : Fin n, Real.exp (f k)) * Real.exp (-m) := mul_pos hpos (Real.exp_pos _)
  unfold tiledSoftmaxRow
  rw [hm, sum_expExt_range f _ hhi]
  simp only []
  rw [Ideal.log_coe, if_neg (not_le.mpr hl), ← EReal.coe_add, ← EReal.coe_sub, Ideal.exp_coe,
    Real.log_mul hpos.ne' (Real.exp_pos _).ne', Real.log_exp]
  have hsh : f j - (m + (Real.log (∑ k : Fin n, Real.exp (f k)) + -m))
      = f j - Real.log (∑ k : Fin n, Real.exp (f k)) := by ring
  rw [hsh, Real.exp_sub, Real.exp_log hpos]

/-- The plain form of a nonempty real row at j: exp(x j) / Σ_k exp(x k), whatever the real shift. -/
theorem softmaxRow_eq_quot (n : ℕ) (hn : 0 < n) (f : Fin n → ℝ) (j : Fin n) :
    softmaxRow (fun j => (f j : EReal)) j
      = ((Real.exp (f j) / ∑ k : Fin n, Real.exp (f k) : ℝ) : EReal) := by
  have hlt := fold_lt_top Finset.univ (fun j : Fin n => (f j : EReal)) (fun _ => EReal.coe_ne_top _)
  have hgt := bot_lt_fold Finset.univ (fun j : Fin n => (f j : EReal)) ⟨0, hn⟩ (Finset.mem_univ _)
    (EReal.coe_ne_bot _)
  have hrow : rowMax (fun j : Fin n => (f j : EReal))
      = (Finset.univ : Finset (Fin n)).fold max negInf (fun j : Fin n => (f j : EReal)) := by
    unfold rowMax
    refine max_eq_right ?_
    rw [negInf_eq]
    exact bot_le
  obtain ⟨M, hM⟩ : ∃ M : ℝ, rowMax (fun j : Fin n => (f j : EReal)) = (M : EReal) :=
    ⟨_, by rw [hrow]; exact (EReal.coe_toReal hlt.ne hgt.ne').symm⟩
  have hpos : 0 < ∑ k : Fin n, Real.exp (f k) :=
    Finset.sum_pos (fun _ _ => Real.exp_pos _) ⟨⟨0, hn⟩, Finset.mem_univ _⟩
  have hposM : 0 < ∑ k : Fin n, Real.exp (f k - M) :=
    Finset.sum_pos (fun _ _ => Real.exp_pos _) ⟨⟨0, hn⟩, Finset.mem_univ _⟩
  unfold softmaxRow
  rw [hM]
  simp_rw [← EReal.coe_sub, Ideal.exp_coe]
  rw [← coe_sum_real, Ideal.div_coe hposM.ne', ← EReal.coe_mul]
  congr 1
  simp_rw [Real.exp_sub]
  rw [← Finset.sum_div]
  have hM0 : Real.exp M ≠ 0 := (Real.exp_pos M).ne'
  field_simp

/-- The streaming softmax of a row of n real logits, walked in T tiles of B lanes that reach the row's end, equals
    the plain softmax of the row. -/
theorem tiled_eq_softmax (T B n : ℕ) (hB : 0 < B) (hT : 0 < T) (hlo : (T - 1) * B < n) (hhi : n ≤ T * B)
    (x : Fin n → EReal) (hx : ∀ j, ∃ r : ℝ, x j = (r : EReal)) (j : Fin n) :
    tiledSoftmaxRow T B x j = softmaxRow x j := by
  have hn : 0 < n := lt_of_le_of_lt (Nat.zero_le _) hlo
  choose f hf using hx
  obtain rfl : x = fun j => (f j : EReal) := funext hf
  rw [tiled_eq_quot T B n hB hT hn hhi f j, softmaxRow_eq_quot n hn f j]

end Cert.Softmax

end
-- ==== Proof.RefSoftmax.lean ====
/-
  The reference's result, entry by entry: the plain softmax of the rows of (projection) · (output table).

  With P the projection stage and W the output table, entry (r, j) of the product is Σ_q P(r, q) · W(q, j).
  The reference folds each row's maximum from −∞, compares it once more with −∞, spreads it to a column
  and along the rows, subtracts, exponentiates, sums each row from the float zero (0 + Σ), spreads the sum
  the same way, and divides. Read at (r, j) that is exp(x(j) − M) / Σ_k exp(x(k) − M) for the row x of the
  product and its maximum M.
-/
import proofs.«178366_j68152541053411_1_alg».proof.Proof.RefProj
import proofs.«178366_j68152541053411_1_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open scoped BigOperators

/-- The rows of logits the reference computes: row r of (projection of (a0, a1)) · a2. -/
def rowOfLogits (a0 : IVec S2048x4 32) (a1 : FVec Ideal S100000x128 .f32) (a2 : FVec Ideal S128x100000 .f32)
    (r : Fin 2048) : Fin 100000 → EReal :=
  fun k => Cert.Softmax.logits (projOf (F := Ideal) a0 a1) a2 r k

/-- Entry (r, j) of the reference's product stage is row r of the projection against column j of the table. -/
theorem logits_apply (a0 : IVec S2048x4 32) (a1 : FVec Ideal S100000x128 .f32) (a2 : FVec Ideal S128x100000 .f32)
    (r : Fin 2048) (j : Fin 100000) :
    val_main_v10 (F := Ideal) a0 a1 a2 (ix2 r j) = rowOfLogits a0 a1 a2 r j := by
  rw [val_main_v10_apply]
  unfold rowOfLogits Cert.Softmax.logits
  rw [projOf_eq]
  refine Finset.sum_congr rfl fun q _ => ?_
  have el : lidx_main_v10 (ix2 r j) q = ix2 r q :=
    funext fun ax => Fin.ext (by match ax with | ⟨0, _⟩ => rfl | ⟨1, _⟩ => rfl)
  have er : ridx_main_v10 (ix2 r j) q = ix2 q j :=
    funext fun ax => Fin.ext (by match ax with | ⟨0, _⟩ => rfl | ⟨1, _⟩ => rfl)
  rw [el, er]

/-- The reduction fact of the row maximum in the form the fold lemma takes. -/
theorem reduces_rows : S2048x100000.Reduces [1] S2048 := by decide

/-- The reference's row maximum at row r: −∞ against the fold of max from −∞ over the row of logits. -/
theorem rowMax_apply (a0 : IVec S2048x4 32) (a1 : FVec Ideal S100000x128 .f32) (a2 : FVec Ideal S128x100000 .f32)
    (r : Fin 2048) :
    val_main_v13 (F := Ideal) a0 a1 a2 (ix1 r) = Cert.Softmax.rowMax (rowOfLogits a0 a1 a2 r) := by
  rw [val_main_v13_apply, val_main_v12_apply, val_main_cst_3_apply]
  unfold val_main_v11
  rw [Host.reduce_eq_fold_single FloatOps.maximumf _ _ reducesTo_S2048x100000_S2048_d1 reduces_rows h_S_ (ix1 r)]
  unfold Cert.Softmax.rowMax Cert.Softmax.negInf
  refine congrArg (max (Ideal.ofBits .f32 0xFF800000#32) ·) ?_
  have key : ∀ k : Fin 100000,
      val_main_v10 (F := Ideal) a0 a1 a2 (reduces_rows.lift (ix1 r) k) = rowOfLogits a0 a1 a2 r k := fun k => by
    have hl : reduces_rows.lift (ix1 r) k = ix2 r k :=
      funext fun ax => Fin.ext (by match ax with | ⟨0, _⟩ => rfl | ⟨1, _⟩ => rfl)
    rw [hl, logits_apply]
  exact congrArg (Finset.univ.fold max (Ideal.ofBits .f32 0xFF800000#32)) (funext key)

/-- The shifted logits at (r, j): the entry less its row's maximum. -/
theorem shift_apply (a0 : IVec S2048x4 32) (a1 : FVec Ideal S100000x128 .f32) (a2 : FVec Ideal S128x100000 .f32)
    (r : Fin 2048) (j : Fin 100000) :
    val_main_v16 (F := Ideal) a0 a1 a2 (ix2 r j)
      = rowOfLogits a0 a1 a2 r j - Cert.Softmax.rowMax (rowOfLogits a0 a1 a2 r) := by
  rw [val_main_v16_apply, val_main_v15_apply, val_main_v14_apply]
  have hi : idx_main_v14 (idx_main_v15 (ix2 r j)) = ix1 r :=
    funext fun ax => Fin.ext (by match ax with | ⟨0, _⟩ => rfl)
  rw [hi, rowMax_apply, logits_apply]
  rfl

/-- The exponentials at (r, j). -/
theorem exp_apply (a0 : IVec S2048x4 32) (a1 : FVec Ideal S100000x128 .f32) (a2 : FVec Ideal S128x100000 .f32)
    (r : Fin 2048) (j : Fin 100000) :
    val_main_v17 (F := Ideal) a0 a1 a2 (ix2 r j)
      = Ideal.exp (rowOfLogits a0 a1 a2 r j - Cert.Softmax.rowMax (rowOfLogits a0 a1 a2 r)) := by
  rw [val_main_v17_apply, Ideal.hostUnary_exp_def, shift_apply]

/-- The row sums of the exponentials at row r: the float sum from zero is the plain sum. -/
theorem sum_apply (a0 : IVec S2048x4 32) (a1 : FVec Ideal S100000x128 .f32) (a2 : FVec Ideal S128x100000 .f32)
    (r : Fin 2048) :
    val_main_v18 (F := Ideal) a0 a1 a2 (ix1 r)
      = ∑ k : Fin 100000, Ideal.exp (rowOfLogits a0 a1 a2 r k - Cert.Softmax.rowMax (rowOfLogits a0 a1 a2 r)) := by
  rw [val_main_v18_apply, val_main_cst_4_apply]
  show Ideal.ofBits .f32 0x00000000#32 + _ = _
  rw [Ideal.ofBits_zero_f32, zero_add]
  refine Finset.sum_congr rfl fun k _ => ?_
  have hi : idx_main_v18 (ix1 r) k = ix2 r k :=
    funext fun ax => Fin.ext (by match ax with | ⟨0, _⟩ => rfl | ⟨1, _⟩ => rfl)
  rw [hi, exp_apply]

/-- The reference's result at (r, j) is the plain softmax of row r of the logits at position j. -/
theorem result_apply (a0 : IVec S2048x4 32) (a1 : FVec Ideal S100000x128 .f32) (a2 : FVec Ideal S128x100000 .f32)
    (r : Fin 2048) (j : Fin 100000) :
    val_main_v21 (F := Ideal) a0 a1 a2 (ix2 r j)
      = Cert.Softmax.softmaxRow (fun k => Cert.Softmax.logits (projOf (F := Ideal) a0 a1) a2 r k) j := by
  rw [val_main_v21_apply, Ideal.hostDivf_def, exp_apply, val_main_v20_apply, val_main_v19_apply]
  have hi : idx_main_v19 (idx_main_v20 (ix2 r j)) = ix1 r :=
    funext fun ax => Fin.ext (by match ax with | ⟨0, _⟩ => rfl)
  rw [hi, sum_apply]
  rfl

end Cert.ReferenceIdeal.RefValue

end
-- ==== Proof.RefRun.lean ====
/-
  The reference's run, stated with the softmax of the rows of (projection) · (output table) as its result.

  Every weakly fair execution of the reference terminates with its result array holding, at each index
  (r, j), the plain softmax of row r of the product at position j, and with its three arguments unchanged.
-/
import proofs.«178366_j68152541053411_1_alg».proof.Proof.RefSoftmax

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open scoped BigOperators

/-- The whole result array as one function of the three arguments: at index i, the plain softmax of row
    i(0) of (projection of (a0, a1)) · a2, at position i(1). -/
def softmaxOf (a0 : IVec S2048x4 32) (a1 : FVec Ideal S100000x128 .f32) (a2 : FVec Ideal S128x100000 .f32) :
    S2048x100000.Idx → EReal := fun i =>
  Cert.Softmax.softmaxRow (fun k => Cert.Softmax.logits (projOf (F := Ideal) a0 a1) a2 (i 0) k) (i 1)

/-- At explicit coordinates. -/
theorem softmaxOf_ix2 (a0 : IVec S2048x4 32) (a1 : FVec Ideal S100000x128 .f32) (a2 : FVec Ideal S128x100000 .f32)
    (r : Fin 2048) (j : Fin 100000) :
    softmaxOf a0 a1 a2 (ix2 r j)
      = Cert.Softmax.softmaxRow (fun k => Cert.Softmax.logits (projOf (F := Ideal) a0 a1) a2 r k) j := rfl

/-- The reference's last stage is that array. -/
theorem result_eq (a0 : IVec S2048x4 32) (a1 : FVec Ideal S100000x128 .f32) (a2 : FVec Ideal S128x100000 .f32) :
    val_main_v21 (F := Ideal) a0 a1 a2 = softmaxOf a0 a1 a2 := by
  funext i
  exact (congrArg (val_main_v21 (F := Ideal) a0 a1 a2) (eq_ix2 i)).trans (result_apply a0 a1 a2 (i 0) (i 1))

/-- The reference's run: on every device, from any memory with zero counters, every weakly fair execution
    terminates with the result array at the softmax of the rows of (projection) · (output table) of the
    arguments' launch contents, and the three arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v21)
        = softmaxOf (m' ((c.tc : Thread nD τ).loc main_arg0)) (m' ((c.tc : Thread nD τ).loc main_arg1))
            (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run (defs (F := Ideal)) _ _).mono
    (fun _ h c => ⟨(h c).1.trans ((val_main_v21_eq (F := Ideal) _ _ _).trans (result_eq _ _ _)), (h c).2⟩)
    (Cert.ReferenceIdeal.Value.run (F := Ideal) m' ρ')

end Cert.ReferenceIdeal.RefValue

end
-- ==== Proof.ProjFinite.lean ====
/-
  The projection of a real table is real: each entry is the sum, from the float zero, of four entries of the
  input table (a gather reads the table at some index, whatever the index array holds), divided by the
  float 4, a nonzero real.
-/
import proofs.«178366_j68152541053411_1_alg».proof.Proof.RefProj

noncomputable section

namespace Cert.ReferenceIdeal.RefValue

open Cert.ReferenceIdeal Cert.ReferenceIdeal.Gen Cert.ReferenceIdeal.Read
open Idealize.ShloMosaic Idealize.ShloMosaic.StableHlo
open scoped BigOperators

/-- The float pattern 0x40800000 is the real 4. -/
theorem ofBits_four : Ideal.ofBits .f32 0x40800000#32 = ((4 : ℝ) : EReal) := by
  simp [Ideal.ofBits, Ideal.ieee, -EReal.coe_mul]; norm_num

/-- A finite sum of coerced reals is the coercion of the real sum. -/
theorem coe_sum_fin {n : ℕ} (g : Fin n → ℝ) : (∑ k : Fin n, ((g k : ℝ) : EReal)) = ((∑ k : Fin n, g k : ℝ) : EReal) := by
  induction n with
  | zero => simp
  | succ n ih => rw [Fin.sum_univ_castSucc, Fin.sum_univ_castSucc, EReal.coe_add, ih]

/-- Every entry of the projection of a real table is a real number. -/
theorem proj_allReal (a0 : IVec S2048x4 32) (a1 : FVec Ideal S100000x128 .f32)
    (h1 : ∀ i, ∃ r : ℝ, a1 i = (r : EReal)) :
    ∀ i, ∃ r : ℝ, projOf (F := Ideal) a0 a1 i = (r : EReal) := by
  intro i
  rw [projOf_eq, val_main_v9_apply, Ideal.hostDivf_def, val_main_v7_apply, val_main_v8_apply,
    val_main_cst_1_apply, val_main_cst_apply]
  have hg : ∀ k : Fin 4, ∃ r : ℝ, val_main_v6 (F := Ideal) a0 a1 (idx_main_v7 i k) = (r : EReal) := fun k => h1 _
  choose g hg using hg
  simp only [hg]
  show ∃ r : ℝ, Ideal.div (Ideal.ofBits .f32 0x00000000#32 + ∑ k : Fin 4, ((g k : ℝ) : EReal))
    (Ideal.ofBits .f32 0x40800000#32) = (r : EReal)
  rw [Ideal.ofBits_zero_f32, zero_add, ofBits_four, coe_sum_fin, Ideal.div_coe (by norm_num : (4 : ℝ) ≠ 0)]
  exact ⟨_, (EReal.coe_mul _ _).symm⟩

end Cert.ReferenceIdeal.RefValue

end
-- ==== Proof.LogitsFinite.lean ====
/-
  The product of two real matrices is real entry by entry: each entry is a finite sum of products of reals.
  With the decoded precondition and the real projection this makes every logit of the reference a real number.
-/
import proofs.«178366_j68152541053411_1_alg».proof.Proof.ProjFinite
import proofs.«178366_j68152541053411_1_alg».proof.Proof.Spec

noncomputable section

namespace Cert.ReferenceIdeal.RefValue

open Cert.ReferenceIdeal Idealize.ShloMosaic Idealize.ShloMosaic.ValueIdx
open scoped BigOperators

/-- An entry of the product of two real matrices is a real number. -/
theorem logits_real {a k n : ℕ} (P : (⟨2, ![a, k]⟩ : Shape).Idx → EReal) (W : (⟨2, ![k, n]⟩ : Shape).Idx → EReal)
    (hP : ∀ i, ∃ r : ℝ, P i = (r : EReal)) (hW : ∀ i, ∃ r : ℝ, W i = (r : EReal)) (r : Fin a) (j : Fin n) :
    ∃ x : ℝ, Cert.Softmax.logits P W r j = (x : EReal) := by
  choose p hp using hP
  choose w hw using hW
  refine ⟨∑ q : Fin k, p (ix2 r q) * w (ix2 q j), ?_⟩
  unfold Cert.Softmax.logits
  rw [← coe_sum_fin]
  exact Finset.sum_congr rfl fun q _ => by rw [hp, hw, EReal.coe_mul]

/-- Every logit of the reference, from real tables, is a real number. -/
theorem ref_logits_real (a0 : IVec S2048x4 32) (a1 : FVec Ideal S100000x128 .f32) (a2 : FVec Ideal S128x100000 .f32)
    (h1 : ∀ i, ∃ r : ℝ, a1 i = (r : EReal)) (h2 : ∀ i, ∃ r : ℝ, a2 i = (r : EReal)) (r : Fin 2048) (j : Fin 100000) :
    ∃ x : ℝ, Cert.Softmax.logits (projOf (F := Ideal) a0 a1) a2 r j = (x : EReal) :=
  logits_real _ _ (proj_allReal a0 a1 h1) h2 r j

end Cert.ReferenceIdeal.RefValue

end
-- ==== Proof.KI.Value.lean ====
/-
  The idealized kernel's result. The second region finds the activations and the padded weights as the host stretches
  left them and the output column as the first region left it: at row r, maximum + log(sum) of the running pair over
  the 98 tiles of the row's logits. So entry (r, j) of its output, for a real column j, is exp(logit(r, j) −
  (m + log l)), the tiled softmax of the row, which on rows of real numbers is the plain softmax; the final slice
  keeps exactly the real columns. The logits are real because the weights are and the activations are means of
  four gathered rows of reals.
-/
import proofs.«178366_j68152541053411_1_alg».proof.Proof.KI.Run
import proofs.«178366_j68152541053411_1_alg».proof.Proof.KI.StatsLse
import proofs.«178366_j68152541053411_1_alg».proof.Proof.KI.NormValue
import proofs.«178366_j68152541053411_1_alg».proof.Proof.KI.HostPrefix
import proofs.«178366_j68152541053411_1_alg».proof.Proof.HostLayout
import proofs.«178366_j68152541053411_1_alg».proof.Proof.LibOnlineSoftmax
import proofs.«178366_j68152541053411_1_alg».proof.Proof.RefRun
import proofs.«178366_j68152541053411_1_alg».proof.Proof.LogitsFinite

set_option maxRecDepth 16384

noncomputable section

namespace Cert.KernelIdeal.Walk

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.Softmax Cert.KernelIdeal.Pay Cert.KernelIdeal.Host
open Cert.ReferenceIdeal.RefValue (projOf softmaxOf softmaxOf_ix2 ref_logits_real)

variable (m : (ℓ : Loc nD τ sig) → Buf (Elt Ideal) ℓ) (c : Dev nD)

/-! ## What the second region finds -/

/-- The activations and the padded weights pass the first region unchanged (it only reads them); -/
theorem W3_v9 : W3 m c (Proc.devRef .tc main_v9) = W2 m c (Proc.devRef .tc main_v9) :=
  (W3_arr m c 0).trans (((dat0 (E2 m) c).arrAt_in 0 rfl _).trans (A_eq0 (E2 m) c 0))
theorem W3_v10 : W3 m c (Proc.devRef .tc main_v10) = W2 m c (Proc.devRef .tc main_v10) :=
  (W3_arr m c 1).trans (((dat0 (E2 m) c).arrAt_in 1 rfl _).trans (A_eq0 (E2 m) c 1))
/-- the output column is what the first region's last tile stored. -/
theorem W3_v11 : W3 m c (Proc.devRef .tc main_v11) = (outsAt0 (E2 m) c 97 tLast.isLt).1 :=
  (W3_arr m c 2).trans (final0 (E2 m) c)

/-- The second region's output array after its run. -/
theorem W4_v12 : W4 m c (Proc.devRef .tc main_v12) = normOut (E3 m c main_v9) (E3 m c main_v10) (E3 m c main_v11) :=
  (W4_arr m c 3).trans (final1 (E3 m) c)

/-- The padded weights extend the weights. -/
theorem wpad_real (q : Fin 128) (j : Fin 100000) :
    (E2 m c main_v10 : S128x100352.Idx → EReal) (ix2 q ⟨j.val, by have := j.isLt; omega⟩) = (m ((c.tc : Thread nD τ).loc main_arg2)) (ix2 q j) := by
  show (V2 m c (Proc.devRef .tc main_v10) : S128x100352.Idx → EReal) (ix2 q ⟨j.val, _⟩) = _
  rw [wpad_entry m c, pad_cols_apply, dif_pos j.isLt]

/-! ## The result -/

/-- The idealized kernel's result array is the softmax of the rows of activations · weights. -/
theorem result_eq (h1 : ∀ i, ∃ x : ℝ, (m ((c.tc : Thread nD τ).loc main_arg1)) i = (x : EReal)) (h2 : ∀ i, ∃ x : ℝ, (m ((c.tc : Thread nD τ).loc main_arg2)) i = (x : EReal)) :
    (W5 m c (Proc.devRef .tc main_v13) : S2048x100000.Idx → EReal)
      = softmaxOf (m ((c.tc : Thread nD τ).loc main_arg0)) (m ((c.tc : Thread nD τ).loc main_arg1)) (m ((c.tc : Thread nD τ).loc main_arg2)) := by
  funext i
  obtain ⟨r, j, rfl⟩ : ∃ (r : Fin 2048) (j : Fin 100000), i = ix2 r j := ⟨i 0, i 1, eq_ix2 i⟩
  show (StableHlo.after hostOps2 (W4 m c) (Proc.devRef .tc main_v13) : S2048x100000.Idx → EReal) (ix2 r j) = _
  rw [slice_exit (W4 m c), slice_cols_apply, W4_v12, normOut_ix2, softmaxOf_ix2]
  have hP : (E2 m c main_v9 : S2048x128.Idx → EReal) = projOf (F := Ideal) (m ((c.tc : Thread nD τ).loc main_arg0)) (m ((c.tc : Thread nD τ).loc main_arg1)) := proj_entry m c
  have hP3 : (E3 m c main_v9 : S2048x128.Idx → EReal) = projOf (F := Ideal) (m ((c.tc : Thread nD τ).loc main_arg0)) (m ((c.tc : Thread nD τ).loc main_arg1)) := (W3_v9 m c).trans hP
  have hW3 : (E3 m c main_v10 : S128x100352.Idx → EReal) = (E2 m c main_v10 : S128x100352.Idx → EReal) := W3_v10 m c
  have hL3 : (E3 m c main_v11 : S2048x1.Idx → EReal) = (outsAt0 (E2 m) c 97 tLast.isLt).1 := W3_v11 m c
  have hlse : (outsAt0 (E2 m) c 97 tLast.isLt).1 (ix2 r (0 : Fin 1)) = _ := lse_eq (E2 m) (m ((c.tc : Thread nD τ).loc main_arg2)) c (wpad_real m c) r
  have hx : xrow (E2 m) (m ((c.tc : Thread nD τ).loc main_arg2)) c r = fun k => logits (projOf (F := Ideal) (m ((c.tc : Thread nD τ).loc main_arg0)) (m ((c.tc : Thread nD τ).loc main_arg1))) (m ((c.tc : Thread nD τ).loc main_arg2)) r k := by
    funext k
    show logits (E2 m c main_v9 : S2048x128.Idx → EReal) (m ((c.tc : Thread nD τ).loc main_arg2)) r k = _
    rw [hP]
  rw [hx] at hlse
  rw [hP3, hW3, hL3, hlse]
  have hsum : (∑ q : Fin 128, projOf (F := Ideal) (m ((c.tc : Thread nD τ).loc main_arg0)) (m ((c.tc : Thread nD τ).loc main_arg1)) (ix2 r q) * (E2 m c main_v10 : S128x100352.Idx → EReal) (ix2 q ⟨j.val, by have := j.isLt; omega⟩))
      = logits (projOf (F := Ideal) (m ((c.tc : Thread nD τ).loc main_arg0)) (m ((c.tc : Thread nD τ).loc main_arg1))) (m ((c.tc : Thread nD τ).loc main_arg2)) r j := by
    unfold logits
    exact Finset.sum_congr rfl fun q _ => congrArg (_ * ·) (wpad_real m c q j)
  rw [hsum]
  exact tiled_eq_softmax 98 1024 100000 (by norm_num) (by norm_num) (by norm_num) (by norm_num)
    (fun k => logits (projOf (F := Ideal) (m ((c.tc : Thread nD τ).loc main_arg0)) (m ((c.tc : Thread nD τ).loc main_arg1))) (m ((c.tc : Thread nD τ).loc main_arg2)) r k)
    (fun k => ref_logits_real _ _ _ h1 h2 r k) j

/-- The idealized kernel's run with its result named: every weakly fair execution terminates, the result array is
    that softmax, and the arguments end as launched. -/
theorem kernel_run (ρ : Dev nD → PrngReg)
    (hfin : ∀ c : Dev nD, (∀ i, ∃ x : ℝ, (m ((c.tc : Thread nD τ).loc main_arg1)) i = (x : EReal)) ∧ (∀ i, ∃ x : ℝ, (m ((c.tc : Thread nD τ).loc main_arg2)) i = (x : EReal))) :
    θ_run defs (onTc (τ := τ) (main (F := Ideal))) ⟨m, fun _ => 0, ρ⟩ (fun r => ∀ c : Dev nD,
      r.2.mem ((c.tc : Thread nD τ).loc main_v13) = softmaxOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v13 (by decide))).trans (result_eq m c (hfin c).1 (hfin c).2),
     (h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Walk

end
-- ==== Proof.PreFinite.lean ====
/-
  The finiteness precondition, decoded: when the predicate "every entry of the input table and of the output
  table has absolute value below +∞" holds of three argument arrays at the extended reals, every entry of
  the two tables is a real number.

  The predicate is the conjunction of two all-reductions by "and" of the entrywise comparison |x| < +∞.
  On the extended reals |x| = max x (−x) and the float +∞ is ⊤, so |x| < ⊤ excludes x = ⊤ and x = ⊥.
-/
import proofs.«178366_j68152541053411_1_alg».proof.Pre_finite_inputs
import Idealize.ShloMosaic.Lib.ReduceAll
import Idealize.ShloMosaic.Lib.ValueIdx
import Idealize.ShloMosaic.PureOps.Ideal.Laws

noncomputable section

namespace Cert.PreFinite

open Idealize.ShloMosaic Idealize.ShloMosaic.ValueIdx Cert.Pre_finite_inputs

/-- The float pattern of +∞ is ⊤. -/
theorem ofBits_inf : Ideal.ofBits .f32 0x7F800000#32 = ⊤ := by simp [Ideal.ofBits, Ideal.ieee]

/-- An extended real whose absolute value compares below the float +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

instance : Subsingleton S_.Idx := ⟨fun a b => funext fun d => d.elim0⟩

/-- When the precondition's predicate holds of three argument arrays, the two float tables are real
    entry by entry. -/
theorem allReal_of_pre [Facts] (a0 : IVec S2048x4 32) (a1 : FVec Ideal S100000x128 .f32)
    (a2 : FVec Ideal S128x100000 .f32) (h : fn (F := Ideal) a0 a1 a2 = fun _ => 1#1) :
    (∀ i, ∃ r : ℝ, a1 i = (r : EReal)) ∧ (∀ i, ∃ r : ℝ, a2 i = (r : EReal)) := by
  have h0 := congrFun h ix0
  dsimp only [fn] at h0
  obtain ⟨h1, h2⟩ := IntOp.andi_eq_one.1 h0
  refine ⟨fun i => ?_, fun i => ?_⟩
  · have e := Host.reduce_andi_all _ _ _ _ ix0 h1 i
    exact real_of_abs_lt_inf (a1 i) e
  · have e := Host.reduce_andi_all _ _ _ _ ix0 h2 i
    exact real_of_abs_lt_inf (a2 i) e

end Cert.PreFinite

end
-- ==== Proof.lean ====
/-
  A two-pass softmax over a 100000-wide vocabulary against jax.nn.softmax, on the extended reals.

  Both programs form the activations P = mean of four gathered rows of W_in and the logits P · W_out. The reference
  takes, per row, exp(x − max x) / Σ exp(x − max x). The kernel pads W_out to 100352 columns and walks them twice.
  Pass one, in 98 tiles of 1024 columns, masks the padded columns with a fill that stands for −∞ (the named constant
  "neg_big": the one rewrite of the idealization, and the statement's one edit) and keeps per row a running maximum m
  and a running sum l of exponentials relative to it, rescaling l by exp(m − m') when the maximum moves; its last
  tile stores m + log l. Pass two, in 196 tiles of 512 columns, writes exp(logit − (m + log l)); the padded columns
  are sliced off. On rows of real logits — real because the inputs are finite — the running pair after the last tile
  is (some real shift m, (Σ_j exp x_j)·exp(−m)), so exp(x_j − (m + log l)) = exp(x_j)/Σ_k exp(x_k), which is also what
  the plain form computes with its own shift.

  The frames: each program runs to the end without a fault and leaves its arguments as launched. The kernel is a
  walk through five segments (host operations, the padding, the two kernel regions, the slice); the first region
  carries its two scratch columns from tile to tile, which its invariant records tile by tile.
-/
import proofs.«178366_j68152541053411_1_alg».proof.Defs
import proofs.«178366_j68152541053411_1_alg».proof.Proof.Gen.Kernel
import proofs.«178366_j68152541053411_1_alg».proof.Proof.Gen.KernelIdeal
import proofs.«178366_j68152541053411_1_alg».proof.Proof.Gen.ReferenceIdeal
import proofs.«178366_j68152541053411_1_alg».proof.Proof.Gen.Pre_finite_inputs
import proofs.«178366_j68152541053411_1_alg».proof.Proof.K.Run
import proofs.«178366_j68152541053411_1_alg».proof.Proof.KI.Value
import proofs.«178366_j68152541053411_1_alg».proof.Proof.RefRun
import proofs.«178366_j68152541053411_1_alg».proof.Proof.PreFinite
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel := fun m ρ _ => Cert.Kernel.Walk.frame m ρ

/-- So does the idealized kernel. -/
theorem frame_kernelIdeal : Cert.frame_KernelIdeal := fun m ρ _ => Cert.KernelIdeal.Walk.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.ref_run m ρ)

/-- The idealization's one rewrite: the mask fill is named, and the name denotes −∞. -/
theorem preserves : Cert.preserves_Kernel_KernelIdeal :=
  IdealRules.named_const.statement Cert.KernelIdeal.κ "neg_big" .f32 0xFF333332#32 ⊥ rfl

/-- From memories agreeing on the arguments both programs end with the same array: the softmax of the rows of
    activations · weights — the kernel by the tiled form, the reference by the plain one. -/
theorem algebraic : Cert.algebraic_KernelIdeal_ReferenceIdeal := by
  intro m ρ m' ρ' hpre hagree
  refine ⟨fun c => Cert.ReferenceIdeal.RefValue.softmaxOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Walk.kernel_run m ρ (fun c => Cert.PreFinite.allReal_of_pre _ _ _ (hpre c)), ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
